-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024 .f32) (main_arg10 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S1x512x128 : Shape := ⟨3, ![1, 512, 128]⟩
abbrev S1x2048x128 : Shape := ⟨3, ![1, 2048, 128]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x512x64 : Shape := ⟨3, ![1, 512, 64]⟩

abbrev nBuf : Space → Nat
  | .hbm => 32
  | .vmem => 32
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S8192x1024, .f32⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S8192x1024, .bf16⟩
  | .hbm, ⟨23, _⟩ => ⟨S8192x1024, .bf16⟩
  | .hbm, ⟨24, _⟩ => ⟨S8192x1024, .bf16⟩
  | .hbm, ⟨25, _⟩ => ⟨S4x2048x1024, .bf16⟩
  | .hbm, ⟨26, _⟩ => ⟨S4x2048x1024, .bf16⟩
  | .hbm, ⟨27, _⟩ => ⟨S4x2048x1024, .bf16⟩
  | .hbm, ⟨28, _⟩ => ⟨S4x2048x1024, .bf16⟩
  | .hbm, ⟨29, _⟩ => ⟨S8192x1024, .bf16⟩
  | .hbm, ⟨30, _⟩ => ⟨S8192x1024, .f32⟩
  | .hbm, ⟨31, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x512x128, .bf16⟩
  | .local _ .vmem, ⟨15, _⟩ => ⟨S1x512x128, .bf16⟩
  | .local _ .vmem, ⟨16, _⟩ => ⟨S1x2048x128, .bf16⟩
  | .local _ .vmem, ⟨17, _⟩ => ⟨S1x2048x128, .bf16⟩
  | .local _ .vmem, ⟨18, _⟩ => ⟨S1x2048x128, .bf16⟩
  | .local _ .vmem, ⟨19, _⟩ => ⟨S1x2048x128, .bf16⟩
  | .local _ .vmem, ⟨20, _⟩ => ⟨S1x512x128, .bf16⟩
  | .local _ .vmem, ⟨21, _⟩ => ⟨S1x512x128, .bf16⟩
  | .local _ .vmem, ⟨22, _⟩ => ⟨S512x1024, .bf16⟩
  | .local _ .vmem, ⟨23, _⟩ => ⟨S512x1024, .bf16⟩
  | .local _ .vmem, ⟨24, _⟩ => ⟨S1024x1024, .bf16⟩
  | .local _ .vmem, ⟨25, _⟩ => ⟨S1x1024, .f32⟩
  | .local _ .vmem, ⟨26, _⟩ => ⟨S512x1024, .f32⟩
  | .local _ .vmem, ⟨27, _⟩ => ⟨S512x1024, .f32⟩
  | .local _ .vmem, ⟨28, _⟩ => ⟨S1x1024, .f32⟩
  | .local _ .vmem, ⟨29, _⟩ => ⟨S1x1024, .f32⟩
  | .local _ .vmem, ⟨30, _⟩ => ⟨S512x1024, .f32⟩
  | .local _ .vmem, ⟨31, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27
abbrev cc2_sem4_0 : DmaSem sig := 28
abbrev cc2_sem5_0 : DmaSem sig := 29
abbrev cc2_sem6_0 : DmaSem sig := 30
abbrev cc2_sem6_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨3, ![4, 8, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S4x2048x1024_S8192x1024 : S4x2048x1024.ShapeCasts S8192x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S512x128_o0_0_S512x64 : S512x128.Slices ![0, 0] S512x64
  slices_S2048x128_o0_0_S2048x64 : S2048x128.Slices ![0, 0] S2048x64
  reduces_S512x2048_S512 : S512x2048.Reduces [1] S512
  shapeCasts_S512_S512x1 : S512.ShapeCasts S512x1
  broadcasts_S512x1_S512x2048 : S512x1.Broadcasts S512x2048
  slices_S512x128_o0_64_S512x64 : S512x128.Slices ![0, 64] S512x64
  slices_S2048x128_o0_64_S2048x64 : S2048x128.Slices ![0, 64] S2048x64
  inb_S1x512x128_S1x512x64_0_0_0 : ∀ a, (![0, 0, 0] : Fin 3 → Nat) a + S1x512x64.size a ≤ S1x512x128.size a
  h_S1x512x64 : 0 < S1x512x64.numel
  shapeCasts_S1x512x64_S512x64 : S1x512x64.ShapeCasts S512x64
  shapeCasts_S512x64_S1x512x64 : S512x64.ShapeCasts S1x512x64
  packedbf16_S1x512x128_S1x512x64_0_0_0 : (Rect.unit (s := S1x512x128) ![0, 0, 0] S1x512x64.size inb_S1x512x128_S1x512x64_0_0_0).PackedRows (EltTy.packing .bf16)
  inb_S1x512x128_S1x512x64_0_0_64 : ∀ a, (![0, 0, 64] : Fin 3 → Nat) a + S1x512x64.size a ≤ S1x512x128.size a
  packedbf16_S1x512x128_S1x512x64_0_0_64 : (Rect.unit (s := S1x512x128) ![0, 0, 64] S1x512x64.size inb_S1x512x128_S1x512x64_0_0_64).PackedRows (EltTy.packing .bf16)
  reduces_S512x1024_S512 : S512x1024.Reduces [1] S512
  broadcasts_S512x1_S512x1024 : S512x1.Broadcasts S512x1024
  dot_S512x1024_S1024x1024_S512x1024_1_1_0_0_n_n_wf : DotDims.WF S512x1024 S1024x1024 S512x1024 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .bf16 = 32 ∨ (Rect.block (s := S8192x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .bf16 = 32 ∨ (Rect.block (s := S8192x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .bf16 = 32 ∨ (Rect.block (s := S8192x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x2048x1024.size a
  hwx1_0 : ∀ i : grid1.Coords, EltTy.bits .bf16 = 32 ∨ (Rect.block (s := S4x2048x1024) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S4x2048x1024.size a
  hwx1_1 : ∀ i : grid1.Coords, EltTy.bits .bf16 = 32 ∨ (Rect.block (s := S4x2048x1024) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S4x2048x1024.size a
  hwx1_2 : ∀ i : grid1.Coords, EltTy.bits .bf16 = 32 ∨ (Rect.block (s := S4x2048x1024) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S4x2048x1024.size a
  hwx1_3 : ∀ i : grid1.Coords, EltTy.bits .bf16 = 32 ∨ (Rect.block (s := S4x2048x1024) S1x512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1024.size a ≤ S1x1024.size a
  hwx2_5 : ∀ i : grid2.Coords, EltTy.bits .f32 = 32 ∨ (Rect.block (s := S1x1024) S1x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x1024.size a ≤ S8192x1024.size a
  hwx2_6 : ∀ i : grid2.Coords, EltTy.bits .f32 = 32 ∨ (Rect.block (s := S8192x1024) S512x1024.size (cc2_transform_6 i) (hinb2_6 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v12) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v16) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S512x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v10) S1x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v17) S512x1024.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S4x2048 : Shape := ⟨2, ![4, 2048]⟩
abbrev S4x2048x1 : Shape := ⟨3, ![4, 2048, 1]⟩

abbrev nBuf : Space → Nat
  | .hbm => 84
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x16x64, .f32⟩
  | .hbm, ⟨16, _⟩ => ⟨S4x16x2048x64, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x16x64, .f32⟩
  | .hbm, ⟨22, _⟩ => ⟨S4x16x2048x64, .f32⟩
  | .hbm, ⟨23, _⟩ => ⟨S4x2048x1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x2048x16x64, .f32⟩
  | .hbm, ⟨28, _⟩ => ⟨S4x16x2048x64, .f32⟩
  | .hbm, ⟨29, _⟩ => ⟨S4x16x2048x2048, .f32⟩
  | .hbm, ⟨30, _⟩ => ⟨S_, .f32⟩
  | .hbm, ⟨31, _⟩ => ⟨S4x16x2048x2048, .f32⟩
  | .hbm, ⟨32, _⟩ => ⟨S4x16x2048x2048, .f32⟩
  | .hbm, ⟨33, _⟩ => ⟨S_, .f32⟩
  | .hbm, ⟨34, _⟩ => ⟨S4x16x2048, .f32⟩
  | .hbm, ⟨35, _⟩ => ⟨S_, .f32⟩
  | .hbm, ⟨36, _⟩ => ⟨S4x16x2048, .f32⟩
  | .hbm, ⟨37, _⟩ => ⟨S4x16x2048, .f32⟩
  | .hbm, ⟨38, _⟩ => ⟨S4x16x2048x1, .f32⟩
  | .hbm, ⟨39, _⟩ => ⟨S4x16x2048x2048, .f32⟩
  | .hbm, ⟨40, _⟩ => ⟨S4x16x2048x2048, .f32⟩
  | .hbm, ⟨41, _⟩ => ⟨S4x16x2048x2048, .f32⟩
  | .hbm, ⟨42, _⟩ => ⟨S_, .f32⟩
  | .hbm, ⟨43, _⟩ => ⟨S4x16x2048, .f32⟩
  | .hbm, ⟨44, _⟩ => ⟨S4x16x2048x1, .f32⟩
  | .hbm, ⟨45, _⟩ => ⟨S4x16x2048x2048, .f32⟩
  | .hbm, ⟨46, _⟩ => ⟨S4x16x2048x2048, .f32⟩
  | .hbm, ⟨47, _⟩ => ⟨S4x16x2048x64, .f32⟩
  | .hbm, ⟨48, _⟩ => ⟨S4x2048x16x64, .f32⟩
  | .hbm, ⟨49, _⟩ => ⟨S4x2048x1024, .f32⟩
  | .hbm, ⟨50, _⟩ => ⟨S4x2048x1024, .f32⟩
  | .hbm, ⟨51, _⟩ => ⟨S1x1x1024, .f32⟩
  | .hbm, ⟨52, _⟩ => ⟨S4x2048x1024, .f32⟩
  | .hbm, ⟨53, _⟩ => ⟨S4x2048x1024, .f32⟩
  | .hbm, ⟨54, _⟩ => ⟨S4x2048x1024, .f32⟩
  | .hbm, ⟨55, _⟩ => ⟨S_, .f32⟩
  | .hbm, ⟨56, _⟩ => ⟨S4x2048, .f32⟩
  | .hbm, ⟨57, _⟩ => ⟨S4x2048x1, .f32⟩
  | .hbm, ⟨58, _⟩ => ⟨S_, .f32⟩
  | .hbm, ⟨59, _⟩ => ⟨S4x2048x1, .f32⟩
  | .hbm, ⟨60, _⟩ => ⟨S4x2048x1, .f32⟩
  | .hbm, ⟨61, _⟩ => ⟨S4x2048x1024, .f32⟩
  | .hbm, ⟨62, _⟩ => ⟨S4x2048x1024, .f32⟩
  | .hbm, ⟨63, _⟩ => ⟨S4x2048x1024, .f32⟩
  | .hbm, ⟨64, _⟩ => ⟨S_, .f32⟩
  | .hbm, ⟨65, _⟩ => ⟨S4x2048, .f32⟩
  | .hbm, ⟨66, _⟩ => ⟨S4x2048x1, .f32⟩
  | .hbm, ⟨67, _⟩ => ⟨S_, .f32⟩
  | .hbm, ⟨68, _⟩ => ⟨S4x2048x1, .f32⟩
  | .hbm, ⟨69, _⟩ => ⟨S4x2048x1, .f32⟩
  | .hbm, ⟨70, _⟩ => ⟨S4x2048x1024, .f32⟩
  | .hbm, ⟨71, _⟩ => ⟨S4x2048x1024, .f32⟩
  | .hbm, ⟨72, _⟩ => ⟨S_, .f32⟩
  | .hbm, ⟨73, _⟩ => ⟨S4x2048x1, .f32⟩
  | .hbm, ⟨74, _⟩ => ⟨S4x2048x1, .f32⟩
  | .hbm, ⟨75, _⟩ => ⟨S4x2048x1, .f32⟩
  | .hbm, ⟨76, _⟩ => ⟨S4x2048x1024, .f32⟩
  | .hbm, ⟨77, _⟩ => ⟨S4x2048x1024, .f32⟩
  | .hbm, ⟨78, _⟩ => ⟨S1x1x1024, .f32⟩
  | .hbm, ⟨79, _⟩ => ⟨S4x2048x1024, .f32⟩
  | .hbm, ⟨80, _⟩ => ⟨S4x2048x1024, .f32⟩
  | .hbm, ⟨81, _⟩ => ⟨S1x1x1024, .f32⟩
  | .hbm, ⟨82, _⟩ => ⟨S4x2048x1024, .f32⟩
  | .hbm, ⟨83, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_3 : Ref sig .tc := ⟨.hbm, 55, rfl⟩
abbrev main_v40 : Ref sig .tc := ⟨.hbm, 56, rfl⟩
abbrev main_v41 : Ref sig .tc := ⟨.hbm, 57, rfl⟩
abbrev main_cst_4 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_5 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  reducesTo_S4x2048x1024_S4x2048_d2 : S4x2048x1024.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.KRun.lean ====
/-
  The kernel program's run with its RESULT named. The program is three kernel launches among four stretches of
  host operations; the contents of every buffer at each boundary are a fold from the launch memory
  (`Gen.W0` … `Gen.W7`). Every weakly fair execution terminates with the result buffer at the last fold's value
  and the eleven argument arrays as launched.
-/
import proofs.«116996_j188978561294_2_alg».proof.Proof.Gen.KernelIdeal.Frame

set_option maxRecDepth 16384

noncomputable section

namespace Cert.KernelValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result array at the value the last boundary's fold
    gives it, and with the argument arrays unchanged. -/
theorem run_value : θ_run defs (onTc (τ := τ) (main (F := F))) ⟨m, fun _ => 0, ρ⟩ (fun r => ∀ c : Dev nD,
      r.2.mem ((c.tc : Thread nD τ).loc main_v18) = W7 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v18 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelValue

end
-- ==== Proof.KHost.lean ====
/-
  The host side of the kernel program. Between its three regions the program only reshapes arrays and narrows
  floats; over the extended reals a narrowing is the identity, and a reshape keeps every entry at its row-major
  position. So each buffer a region reads at its entry is, entry by entry, either a launch input or what an earlier
  region left in one of its output arrays:

    before region 0:  x as [8192, 1024] (row r = batch r / 2048, position r % 2048), the four weight matrices
                      unchanged, the six vectors as [1, 1024];
    before region 1:  region 0's three outputs as [4, 2048, 1024] (batch n, position s = row n * 2048 + s);
    before region 2:  region 1's output as [8192, 1024];
    the result:       region 2's output as [4, 2048, 1024];

  and every buffer a later region reads but no earlier step writes still holds what it held before region 0.
  The contents a region leaves in an output array are kept as they are named by the frame, never opened.
-/
import proofs.«116996_j188978561294_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelValue

open Cert.KernelIdeal Cert.KernelIdeal.Gen Idealize.ShloMosaic Idealize.ShloMosaic.ValueIdx
open Idealize.ShloMosaic.TcCoe Idealize.SL.Sem

variable (m : (ℓ : Loc nD τ sig) → Buf (Elt Ideal) ℓ) (ρ : Dev nD → PrngReg) (c : Dev nD)

/-! ## The four reshapes, read at an index -/

/-- [4, 2048, 1024] viewed as [8192, 1024]: row `r` is batch `r / 2048`, position `r % 2048`. -/
theorem cast_3to2_apply {α : Type} (y : S4x2048x1024.Idx → α) (h : S4x2048x1024.ShapeCasts S8192x1024)
    (r : Fin 8192) (d : Fin 1024) :
    shapeCast S8192x1024 y h (ix2 r d)
      = y (ix3 (⟨r.val / 2048, by have := r.isLt; omega⟩ : Fin 4) (⟨r.val % 2048, Nat.mod_lt _ (by norm_num)⟩ : Fin 2048) d) := by
  refine shapeCast_apply y h _ _ ?_
  rw [Shape.rowMajor_val_three, Shape.rowMajor_val_two]
  show (r.val / 2048 * 2048 + r.val % 2048) * 1024 + d.val = r.val * 1024 + d.val
  omega

/-- [8192, 1024] viewed as [4, 2048, 1024]: batch `n`, position `s` is row `n * 2048 + s`. -/
theorem cast_2to3_apply {α : Type} (y : S8192x1024.Idx → α) (h : S8192x1024.ShapeCasts S4x2048x1024)
    (n : Fin 4) (s : Fin 2048) (e : Fin 1024) :
    shapeCast S4x2048x1024 y h (ix3 n s e)
      = y (ix2 (⟨n.val * 2048 + s.val, by have := n.isLt; have := s.isLt; omega⟩ : Fin 8192) e) := by
  refine shapeCast_apply y h _ _ ?_
  rw [Shape.rowMajor_val_three, Shape.rowMajor_val_two]
  show (n.val * 2048 + s.val) * 1024 + e.val = (n.val * 2048 + s.val) * 1024 + e.val
  rfl

/-- [1024] viewed as [1, 1024]: the one row is the vector. -/
theorem cast_1to2_apply {α : Type} (y : S1024.Idx → α) (h : S1024.ShapeCasts S1x1024) (z : Fin 1) (e : Fin 1024) :
    shapeCast S1x1024 y h (ix2 z e) = y (ix1 e) := by
  refine shapeCast_apply y h _ _ ?_
  rw [Shape.rowMajor_val_one, Shape.rowMajor_val_two]
  show e.val = z.val * 1024 + e.val
  have := z.isLt
  omega

/-! ## (H1) Region 0's entry contents -/

/-- The launch contents of buffer `b` on core `c`. -/
abbrev ml (b : Ref sig .tc) : Buf (Elt Ideal) ((c : Thread nD τ).loc b) := m ((c : Thread nD τ).loc b)

theorem V1_main_v0 : (V1 m ρ c main_v0 : S8192x1024.Idx → EReal)
    = shapeCast S8192x1024 (ml m c main_arg0 : S4x2048x1024.Idx → EReal) shapeCasts_S4x2048x1024_S8192x1024 := by
  show StableHlo.after hostOps0 _ (Proc.devRef .tc main_v0) = _
  after_results
  rfl

theorem V1_main_v0_apply (r : Fin 8192) (d : Fin 1024) :
    (V1 m ρ c main_v0 : S8192x1024.Idx → EReal) (ix2 r d)
      = (ml m c main_arg0 : S4x2048x1024.Idx → EReal)
          (ix3 (⟨r.val / 2048, by have := r.isLt; omega⟩ : Fin 4) (⟨r.val % 2048, Nat.mod_lt _ (by norm_num)⟩ : Fin 2048) d) := by
  rw [V1_main_v0]
  exact cast_3to2_apply _ _ r d

theorem V1_main_v1 : (V1 m ρ c main_v1 : S1024x1024.Idx → EReal) = (ml m c main_arg1 : S1024x1024.Idx → EReal) := by
  show StableHlo.after hostOps0 _ (Proc.devRef .tc main_v1) = _
  after_results
  rfl
theorem V1_main_v2 : (V1 m ρ c main_v2 : S1024x1024.Idx → EReal) = (ml m c main_arg3 : S1024x1024.Idx → EReal) := by
  show StableHlo.after hostOps0 _ (Proc.devRef .tc main_v2) = _
  after_results
  rfl
theorem V1_main_v3 : (V1 m ρ c main_v3 : S1024x1024.Idx → EReal) = (ml m c main_arg5 : S1024x1024.Idx → EReal) := by
  show StableHlo.after hostOps0 _ (Proc.devRef .tc main_v3) = _
  after_results
  rfl
theorem V1_main_v4 : (V1 m ρ c main_v4 : S1024x1024.Idx → EReal) = (ml m c main_arg7 : S1024x1024.Idx → EReal) := by
  show StableHlo.after hostOps0 _ (Proc.devRef .tc main_v4) = _
  after_results
  rfl

theorem V1_main_v5 : (V1 m ρ c main_v5 : S1x1024.Idx → EReal)
    = shapeCast S1x1024 (ml m c main_arg2 : S1024.Idx → EReal) shapeCasts_S1024_S1x1024 := by
  show StableHlo.after hostOps0 _ (Proc.devRef .tc main_v5) = _
  after_results
  rfl
theorem V1_main_v5_apply (z : Fin 1) (e : Fin 1024) :
    (V1 m ρ c main_v5 : S1x1024.Idx → EReal) (ix2 z e) = (ml m c main_arg2 : S1024.Idx → EReal) (ix1 e) := by
  rw [V1_main_v5]; exact cast_1to2_apply _ _ z e

theorem V1_main_v6 : (V1 m ρ c main_v6 : S1x1024.Idx → EReal)
    = shapeCast S1x1024 (ml m c main_arg4 : S1024.Idx → EReal) shapeCasts_S1024_S1x1024 := by
  show StableHlo.after hostOps0 _ (Proc.devRef .tc main_v6) = _
  after_results
  rfl
theorem V1_main_v6_apply (z : Fin 1) (e : Fin 1024) :
    (V1 m ρ c main_v6 : S1x1024.Idx → EReal) (ix2 z e) = (ml m c main_arg4 : S1024.Idx → EReal) (ix1 e) := by
  rw [V1_main_v6]; exact cast_1to2_apply _ _ z e

theorem V1_main_v7 : (V1 m ρ c main_v7 : S1x1024.Idx → EReal)
    = shapeCast S1x1024 (ml m c main_arg6 : S1024.Idx → EReal) shapeCasts_S1024_S1x1024 := by
  show StableHlo.after hostOps0 _ (Proc.devRef .tc main_v7) = _
  after_results
  rfl
theorem V1_main_v7_apply (z : Fin 1) (e : Fin 1024) :
    (V1 m ρ c main_v7 : S1x1024.Idx → EReal) (ix2 z e) = (ml m c main_arg6 : S1024.Idx → EReal) (ix1 e) := by
  rw [V1_main_v7]; exact cast_1to2_apply _ _ z e

theorem V1_main_v8 : (V1 m ρ c main_v8 : S1x1024.Idx → EReal)
    = shapeCast S1x1024 (ml m c main_arg8 : S1024.Idx → EReal) shapeCasts_S1024_S1x1024 := by
  show StableHlo.after hostOps0 _ (Proc.devRef .tc main_v8) = _
  after_results
  rfl
theorem V1_main_v8_apply (z : Fin 1) (e : Fin 1024) :
    (V1 m ρ c main_v8 : S1x1024.Idx → EReal) (ix2 z e) = (ml m c main_arg8 : S1024.Idx → EReal) (ix1 e) := by
  rw [V1_main_v8]; exact cast_1to2_apply _ _ z e

theorem V1_main_v9 : (V1 m ρ c main_v9 : S1x1024.Idx → EReal)
    = shapeCast S1x1024 (ml m c main_arg9 : S1024.Idx → EReal) shapeCasts_S1024_S1x1024 := by
  show StableHlo.after hostOps0 _ (Proc.devRef .tc main_v9) = _
  after_results
  rfl
theorem V1_main_v9_apply (z : Fin 1) (e : Fin 1024) :
    (V1 m ρ c main_v9 : S1x1024.Idx → EReal) (ix2 z e) = (ml m c main_arg9 : S1024.Idx → EReal) (ix1 e) := by
  rw [V1_main_v9]; exact cast_1to2_apply _ _ z e

theorem V1_main_v10 : (V1 m ρ c main_v10 : S1x1024.Idx → EReal)
    = shapeCast S1x1024 (ml m c main_arg10 : S1024.Idx → EReal) shapeCasts_S1024_S1x1024 := by
  show StableHlo.after hostOps0 _ (Proc.devRef .tc main_v10) = _
  after_results
  rfl
theorem V1_main_v10_apply (z : Fin 1) (e : Fin 1024) :
    (V1 m ρ c main_v10 : S1x1024.Idx → EReal) (ix2 z e) = (ml m c main_arg10 : S1024.Idx → EReal) (ix1 e) := by
  rw [V1_main_v10]; exact cast_1to2_apply _ _ z e

/-! ## (H2) Region 1's entry contents -/

/-- Region 0 reads `main_v0` through an input window: it leaves the array as entered. -/
theorem W2_main_v0 : W2 m ρ c (Proc.devRef .tc main_v0) = V1 m ρ c main_v0 :=
  calc W2 m ρ c (Proc.devRef .tc main_v0)
    _ = (dat0 (V1 m ρ) c).arrAt 0 cfg0.N := W2_arr m ρ c 0
    _ = (dat0 (V1 m ρ) c).A 0 := Pipeline.Dat.arrAt_in _ 0 rfl cfg0.N
    _ = V1 m ρ c main_v0 := A_eq0 (V1 m ρ) c 0

theorem V3_keep_main_v0 : V3 m ρ c main_v0 = V1 m ρ c main_v0 :=
  calc W3 m ρ c (Proc.devRef .tc main_v0)
    _ = W2 m ρ c (Proc.devRef .tc main_v0) := StableHlo.after_of_forall_not_mem (b := Proc.devRef .tc main_v0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = V1 m ρ c main_v0 := W2_main_v0 m ρ c

theorem V3_keep_main_v4 : V3 m ρ c main_v4 = V1 m ρ c main_v4 :=
  calc W3 m ρ c (Proc.devRef .tc main_v4)
    _ = W2 m ρ c (Proc.devRef .tc main_v4) := StableHlo.after_of_forall_not_mem (b := Proc.devRef .tc main_v4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v4) := W2_of_ne m ρ c main_v4 (by decide)

theorem V3_keep_main_v8 : V3 m ρ c main_v8 = V1 m ρ c main_v8 :=
  calc W3 m ρ c (Proc.devRef .tc main_v8)
    _ = W2 m ρ c (Proc.devRef .tc main_v8) := StableHlo.after_of_forall_not_mem (b := Proc.devRef .tc main_v8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v8) := W2_of_ne m ρ c main_v8 (by decide)

theorem V3_keep_main_v9 : V3 m ρ c main_v9 = V1 m ρ c main_v9 :=
  calc W3 m ρ c (Proc.devRef .tc main_v9)
    _ = W2 m ρ c (Proc.devRef .tc main_v9) := StableHlo.after_of_forall_not_mem (b := Proc.devRef .tc main_v9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v9) := W2_of_ne m ρ c main_v9 (by decide)

theorem V3_keep_main_v10 : V3 m ρ c main_v10 = V1 m ρ c main_v10 :=
  calc W3 m ρ c (Proc.devRef .tc main_v10)
    _ = W2 m ρ c (Proc.devRef .tc main_v10) := StableHlo.after_of_forall_not_mem (b := Proc.devRef .tc main_v10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v10) := W2_of_ne m ρ c main_v10 (by decide)

/-- A reshape of one of region 0's outputs, over the array `A` the region leaves there. -/
theorem V3_main_v12 (A : S8192x1024.Idx → EReal) (hA : (dat0 (V1 m ρ) c).arrAt 7 cfg0.N = A) :
    (V3 m ρ c main_v12 : S4x2048x1024.Idx → EReal) = shapeCast S4x2048x1024 A shapeCasts_S8192x1024_S4x2048x1024 := by
  have e : W2 m ρ c (Proc.devRef .tc main_v11_0) = A := (W2_arr m ρ c 7).trans hA
  show StableHlo.after hostOps1 _ (Proc.devRef .tc main_v12) = _
  after_results
  rw [e]
  rfl
theorem V3_main_v13 (A : S8192x1024.Idx → EReal) (hA : (dat0 (V1 m ρ) c).arrAt 8 cfg0.N = A) :
    (V3 m ρ c main_v13 : S4x2048x1024.Idx → EReal) = shapeCast S4x2048x1024 A shapeCasts_S8192x1024_S4x2048x1024 := by
  have e : W2 m ρ c (Proc.devRef .tc main_v11_1) = A := (W2_arr m ρ c 8).trans hA
  show StableHlo.after hostOps1 _ (Proc.devRef .tc main_v13) = _
  after_results
  rw [e]
  rfl
theorem V3_main_v14 (A : S8192x1024.Idx → EReal) (hA : (dat0 (V1 m ρ) c).arrAt 9 cfg0.N = A) :
    (V3 m ρ c main_v14 : S4x2048x1024.Idx → EReal) = shapeCast S4x2048x1024 A shapeCasts_S8192x1024_S4x2048x1024 := by
  have e : W2 m ρ c (Proc.devRef .tc main_v11_2) = A := (W2_arr m ρ c 9).trans hA
  show StableHlo.after hostOps1 _ (Proc.devRef .tc main_v14) = _
  after_results
  rw [e]
  rfl

theorem V3_main_v12_apply (n : Fin 4) (s : Fin 2048) (e : Fin 1024) :
    (V3 m ρ c main_v12 : S4x2048x1024.Idx → EReal) (ix3 n s e)
      = ((dat0 (V1 m ρ) c).arrAt 7 cfg0.N : S8192x1024.Idx → EReal)
          (ix2 (⟨n.val * 2048 + s.val, by have := n.isLt; have := s.isLt; omega⟩ : Fin 8192) e) := by
  rw [V3_main_v12 m ρ c _ rfl]; exact cast_2to3_apply _ _ n s e
theorem V3_main_v13_apply (n : Fin 4) (s : Fin 2048) (e : Fin 1024) :
    (V3 m ρ c main_v13 : S4x2048x1024.Idx → EReal) (ix3 n s e)
      = ((dat0 (V1 m ρ) c).arrAt 8 cfg0.N : S8192x1024.Idx → EReal)
          (ix2 (⟨n.val * 2048 + s.val, by have := n.isLt; have := s.isLt; omega⟩ : Fin 8192) e) := by
  rw [V3_main_v13 m ρ c _ rfl]; exact cast_2to3_apply _ _ n s e
theorem V3_main_v14_apply (n : Fin 4) (s : Fin 2048) (e : Fin 1024) :
    (V3 m ρ c main_v14 : S4x2048x1024.Idx → EReal) (ix3 n s e)
      = ((dat0 (V1 m ρ) c).arrAt 9 cfg0.N : S8192x1024.Idx → EReal)
          (ix2 (⟨n.val * 2048 + s.val, by have := n.isLt; have := s.isLt; omega⟩ : Fin 8192) e) := by
  rw [V3_main_v14 m ρ c _ rfl]; exact cast_2to3_apply _ _ n s e

/-! ## (H3) Region 2's entry contents -/

theorem V5_keep_main_v0 : V5 m ρ c main_v0 = V1 m ρ c main_v0 :=
  calc W5 m ρ c (Proc.devRef .tc main_v0)
    _ = W4 m ρ c (Proc.devRef .tc main_v0) := StableHlo.after_of_forall_not_mem (b := Proc.devRef .tc main_v0) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v0) := W4_of_ne m ρ c main_v0 (by decide)
    _ = V1 m ρ c main_v0 := V3_keep_main_v0 m ρ c

theorem V5_keep_main_v4 : V5 m ρ c main_v4 = V1 m ρ c main_v4 :=
  calc W5 m ρ c (Proc.devRef .tc main_v4)
    _ = W4 m ρ c (Proc.devRef .tc main_v4) := StableHlo.after_of_forall_not_mem (b := Proc.devRef .tc main_v4) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v4) := W4_of_ne m ρ c main_v4 (by decide)
    _ = V1 m ρ c main_v4 := V3_keep_main_v4 m ρ c

theorem V5_keep_main_v8 : V5 m ρ c main_v8 = V1 m ρ c main_v8 :=
  calc W5 m ρ c (Proc.devRef .tc main_v8)
    _ = W4 m ρ c (Proc.devRef .tc main_v8) := StableHlo.after_of_forall_not_mem (b := Proc.devRef .tc main_v8) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v8) := W4_of_ne m ρ c main_v8 (by decide)
    _ = V1 m ρ c main_v8 := V3_keep_main_v8 m ρ c

theorem V5_keep_main_v9 : V5 m ρ c main_v9 = V1 m ρ c main_v9 :=
  calc W5 m ρ c (Proc.devRef .tc main_v9)
    _ = W4 m ρ c (Proc.devRef .tc main_v9) := StableHlo.after_of_forall_not_mem (b := Proc.devRef .tc main_v9) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v9) := W4_of_ne m ρ c main_v9 (by decide)
    _ = V1 m ρ c main_v9 := V3_keep_main_v9 m ρ c

theorem V5_keep_main_v10 : V5 m ρ c main_v10 = V1 m ρ c main_v10 :=
  calc W5 m ρ c (Proc.devRef .tc main_v10)
    _ = W4 m ρ c (Proc.devRef .tc main_v10) := StableHlo.after_of_forall_not_mem (b := Proc.devRef .tc main_v10) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v10) := W4_of_ne m ρ c main_v10 (by decide)
    _ = V1 m ρ c main_v10 := V3_keep_main_v10 m ρ c

/-- The reshape of region 1's output, over the array `A` the region leaves there. -/
theorem V5_main_v16 (A : S4x2048x1024.Idx → EReal) (hA : (dat1 (V3 m ρ) c).arrAt 3 cfg1.N = A) :
    (V5 m ρ c main_v16 : S8192x1024.Idx → EReal) = shapeCast S8192x1024 A shapeCasts_S4x2048x1024_S8192x1024 := by
  have e : W4 m ρ c (Proc.devRef .tc main_v15) = A := (W4_arr m ρ c 3).trans hA
  show StableHlo.after hostOps2 _ (Proc.devRef .tc main_v16) = _
  after_results
  rw [e]
  rfl

theorem V5_main_v16_apply (r : Fin 8192) (e : Fin 1024) :
    (V5 m ρ c main_v16 : S8192x1024.Idx → EReal) (ix2 r e)
      = ((dat1 (V3 m ρ) c).arrAt 3 cfg1.N : S4x2048x1024.Idx → EReal)
          (ix3 (⟨r.val / 2048, by have := r.isLt; omega⟩ : Fin 4) (⟨r.val % 2048, Nat.mod_lt _ (by norm_num)⟩ : Fin 2048) e) := by
  rw [V5_main_v16 m ρ c _ rfl]; exact cast_3to2_apply _ _ r e

/-! ## (H4) The result -/

/-- The reshape of region 2's output, over the array `A` the region leaves there. -/
theorem W7_main_v18 (A : S8192x1024.Idx → EReal) (hA : (dat2 (V5 m ρ) c).arrAt 6 cfg2.N = A) :
    (W7 m ρ c (Proc.devRef .tc main_v18) : S4x2048x1024.Idx → EReal)
      = shapeCast S4x2048x1024 A shapeCasts_S8192x1024_S4x2048x1024 := by
  have e : W6 m ρ c (Proc.devRef .tc main_v17) = A := (W6_arr m ρ c 6).trans hA
  show StableHlo.after hostOps3 _ (Proc.devRef .tc main_v18) = _
  after_results
  rw [e]
  rfl

theorem W7_main_v18_apply (n : Fin 4) (s : Fin 2048) (e : Fin 1024) :
    (W7 m ρ c (Proc.devRef .tc main_v18) : S4x2048x1024.Idx → EReal) (ix3 n s e)
      = ((dat2 (V5 m ρ) c).arrAt 6 cfg2.N : S8192x1024.Idx → EReal)
          (ix2 (⟨n.val * 2048 + s.val, by have := n.isLt; have := s.isLt; omega⟩ : Fin 8192) e) := by
  rw [W7_main_v18 m ρ c _ rfl]; exact cast_2to3_apply _ _ n s e

end Cert.KernelValue

end
-- ==== Proof.KDots.lean ====
/-
  The kernel's three matrix products read at an index, at the exact instance: each is the plain sum over the
  contracted coordinate of the products of the operands' entries (the accumulator is the zero splat).
-/
import proofs.«116996_j188978561294_2_alg».proof.Proof.Gen.KernelIdeal
import Idealize.ShloMosaic.Lib.ValueIdx
import Idealize.ShloMosaic.PureOps.Ideal.Laws

noncomputable section

namespace Cert.KernelValue

open Cert.KernelIdeal Idealize.ShloMosaic Idealize.ShloMosaic.ValueIdx

theorem matmul_proj_apply_lhs_nc (i : S512x1024.Idx) (q : dot_S512x1024_S1024x1024_S512x1024_1_1_0_0_n_n.contr.Idx) : (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem matmul_proj_apply_rhs_nc (i : S512x1024.Idx) (q : dot_S512x1024_S1024x1024_S512x1024_1_1_0_0_n_n.contr.Idx) : (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl

/-- A [512, 1024] block times the transpose of a [1024, 1024] weight: entry (p, q) is `∑ k, l p k · r q k`. -/
theorem matmul_proj_apply {φ₁ φ₂ : FTy} (l : FVec Ideal S512x1024 φ₁) (r : FVec Ideal S1024x1024 φ₂) (p : Fin 512) (q : Fin 1024) :
    matmul dot_S512x1024_S1024x1024_S512x1024_1_1_0_0_n_n none l r (constant (F := Ideal) S512x1024 .f32 0x00000000#32) (ix2 p q)
      = ∑ k : Fin 1024, l (ix2 p k) * r (ix2 q k) := by
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p q) ((contrEquiv1 dot_S512x1024_S1024x1024_S512x1024_1_1_0_0_n_n 1024 rfl rfl).symm k) = ix2 p k :=
    funext fun a => Fin.ext (by
      match a with
      | ⟨0, _⟩ => exact matmul_proj_apply_lhs_nc _ _
      | ⟨1, _⟩ => exact (dot_S512x1024_S1024x1024_S512x1024_1_1_0_0_n_n.lhsIdx_val_of_single rfl _ _).trans hk)
  have er : dot_S512x1024_S1024x1024_S512x1024_1_1_0_0_n_n.rhsIdx (ix2 p q) ((contrEquiv1 dot_S512x1024_S1024x1024_S512x1024_1_1_0_0_n_n 1024 rfl rfl).symm k) = ix2 q k :=
    funext fun a => Fin.ext (by
      match a with
      | ⟨0, _⟩ => exact matmul_proj_apply_rhs_nc _ _
      | ⟨1, _⟩ => exact (dot_S512x1024_S1024x1024_S512x1024_1_1_0_0_n_n.rhsIdx_val_of_single rfl _ _).trans hk)
  rw [el, er]

theorem matmul_score_apply_lhs_nc (i : S512x2048.Idx) (q : dot_S512x64_S2048x64_S512x2048_1_1_0_0_n_n.contr.Idx) : (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem matmul_score_apply_rhs_nc (i : S512x2048.Idx) (q : dot_S512x64_S2048x64_S512x2048_1_1_0_0_n_n.contr.Idx) : (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl

/-- One head's queries [512, 64] against its keys [2048, 64]: entry (p, q) is `∑ k, l p k · r q k`. -/
theorem matmul_score_apply {φ₁ φ₂ : FTy} (l : FVec Ideal S512x64 φ₁) (r : FVec Ideal S2048x64 φ₂) (p : Fin 512) (q : Fin 2048) :
    matmul dot_S512x64_S2048x64_S512x2048_1_1_0_0_n_n none l r (constant (F := Ideal) S512x2048 .f32 0x00000000#32) (ix2 p q)
      = ∑ k : Fin 64, l (ix2 p k) * r (ix2 q k) := by
  simp only [matmul]
  rw [Ideal.matmul_constant_zero_apply, ← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 p q) ((contrEquiv1 dot_S512x64_S2048x64_S512x2048_1_1_0_0_n_n 64 rfl rfl).symm k) = ix2 p k :=
    funext fun a => Fin.ext (by
      match a with
      | ⟨0, _⟩ => exact matmul_score_apply_lhs_nc _ _
      | ⟨1, _⟩ => exact (dot_S512x64_S2048x64_S512x2048_1_1_0_0_n_n.lhsIdx_val_of_single rfl _ _).trans hk)
  have er : dot_S512x64_S2048x64_S512x2048_1_1_0_0_n_n.rhsIdx (ix2 p q) ((contrEquiv1 dot_S512x64_S2048x64_S512x2048_1_1_0_0_n_n 64 rfl rfl).symm k) = ix2 q k :=
    funext fun a => Fin.ext (by
      match a with
      | ⟨0, _⟩ => exact matmul_score_apply_rhs_nc _ _
      | ⟨1, _⟩ => exact (dot_S512x64_S2048x64_S512x2048_1_1_0_0_n_n.rhsIdx_val_of_single rfl _ _).trans hk)
  rw [el, er]

theorem matmul_ctx_apply_lhs_nc (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem matmul_ctx_apply_rhs_nc (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The weights [512, 2048] times one head's values [2048, 64]: entry (p, q) is `∑ k, l p k · r k q`. -/
theorem matmul_ctx_apply {φ₁ φ₂ : FTy} (l : FVec Ideal S512x2048 φ₁) (r : FVec Ideal S2048x64 φ₂) (p : Fin 512) (q : Fin 64) :
    matmul dot_S512x2048_S2048x64_S512x64_1_0_0_1_n_n none l r (constant (F := Ideal) S512x64 .f32 0x00000000#32) (ix2 p q)
      = ∑ k : Fin 2048, l (ix2 p k) * r (ix2 k q) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 p q) ((contrEquiv1 dot_S512x2048_S2048x64_S512x64_1_0_0_1_n_n 2048 rfl rfl).symm k) = ix2 p k :=
    funext fun a => Fin.ext (by
      match a with
      | ⟨0, _⟩ => exact matmul_ctx_apply_lhs_nc _ _
      | ⟨1, _⟩ => exact (dot_S512x2048_S2048x64_S512x64_1_0_0_1_n_n.lhsIdx_val_of_single rfl _ _).trans hk)
  have er : dot_S512x2048_S2048x64_S512x64_1_0_0_1_n_n.rhsIdx (ix2 p q) ((contrEquiv1 dot_S512x2048_S2048x64_S512x64_1_0_0_1_n_n 2048 rfl rfl).symm k) = ix2 k q :=
    funext fun a => Fin.ext (by
      match a with
      | ⟨1, _⟩ => exact matmul_ctx_apply_rhs_nc _ _
      | ⟨0, _⟩ => exact (dot_S512x2048_S2048x64_S512x64_1_0_0_1_n_n.rhsIdx_val_of_single rfl _ _).trans hk)
  rw [el, er]

end Cert.KernelValue

end
-- ==== Proof.KReg0.lean ====
/-
  The first launch: three linear layers `rows · Wᵀ + b` of the [8192, 1024] array of rows, sixteen blocks of 512
  rows each. A block's payload at (p, q) is the row's product with row q of the weight plus the bias; block t of
  an output is rows 512·t … 512·t + 511 of the whole-array function, and the sixteen blocks cover the array.
-/
import proofs.«116996_j188978561294_2_alg».proof.Proof.Gen.KernelIdeal.Frame
import proofs.«116996_j188978561294_2_alg».proof.Proof.KDots
import Idealize.ShloMosaic.Lib.Pipeline.Value
import Idealize.ShloMosaic.Lib.ValueLayout

set_option maxRecDepth 16384

noncomputable section

namespace Cert.KernelValue

open Cert.KernelIdeal Cert.KernelIdeal.Gen Idealize.ShloMosaic Idealize.ShloMosaic.ValueIdx Idealize.ShloMosaic.TcCoe Idealize.SL.Sem
open Idealize.ShloMosaic.Pipeline (Dat)

theorem hz2 : (![0, 0] : Fin 2 → Nat) = fun _ => 0 := funext fun a => by fin_cases a <;> rfl

/-- The query layer's payload at (p, q): row p of the block times row q of the weight, plus the bias at q. -/
theorem pay_lin2_apply (x0 : Vec Ideal S512x1024 .f32) (x1 : Vec Ideal S1024x1024 .bf16) (x2 : Vec Ideal S1x1024 .f32) (p : Fin 512) (q : Fin 1024) :
    k0_pay2 (F := Ideal) x0 x1 x2 (ix2 p q) = (∑ k : Fin 1024, x0 (ix2 p k) * x1 (ix2 q k)) + x2 (ix2 0 q) := by
  unfold k0_pay2 k0_pay1
  dsimp only
  rw [shapeCast_self, shapeCast_self, shapeCast_self]
  rw [truncf_apply, addf_apply, matmul_proj_apply,
    broadcastTo_apply x2 broadcasts_S1x1024_S512x1024 (ix2 p q) (ix2 0 q) (fun a => by
      match a with
      | ⟨0, _⟩ => rfl
      | ⟨1, _⟩ => rfl)]
  rfl

/-- The key layer's payload at (p, q): row p of the block times row q of the weight, plus the bias at q. -/
theorem pay_lin3_apply (x0 : Vec Ideal S512x1024 .f32) (x1 : Vec Ideal S1024x1024 .bf16) (x2 : Vec Ideal S1x1024 .f32) (p : Fin 512) (q : Fin 1024) :
    k0_pay3 (F := Ideal) x0 x1 x2 (ix2 p q) = (∑ k : Fin 1024, x0 (ix2 p k) * x1 (ix2 q k)) + x2 (ix2 0 q) := by
  unfold k0_pay3 k0_pay1
  dsimp only
  rw [shapeCast_self, shapeCast_self, shapeCast_self]
  rw [truncf_apply, addf_apply, matmul_proj_apply,
    broadcastTo_apply x2 broadcasts_S1x1024_S512x1024 (ix2 p q) (ix2 0 q) (fun a => by
      match a with
      | ⟨0, _⟩ => rfl
      | ⟨1, _⟩ => rfl)]
  rfl

/-- The value layer's payload at (p, q): row p of the block times row q of the weight, plus the bias at q. -/
theorem pay_lin4_apply (x0 : Vec Ideal S512x1024 .f32) (x1 : Vec Ideal S1024x1024 .bf16) (x2 : Vec Ideal S1x1024 .f32) (p : Fin 512) (q : Fin 1024) :
    k0_pay4 (F := Ideal) x0 x1 x2 (ix2 p q) = (∑ k : Fin 1024, x0 (ix2 p k) * x1 (ix2 q k)) + x2 (ix2 0 q) := by
  unfold k0_pay4 k0_pay1
  dsimp only
  rw [shapeCast_self, shapeCast_self, shapeCast_self]
  rw [truncf_apply, addf_apply, matmul_proj_apply,
    broadcastTo_apply x2 broadcasts_S1x1024_S512x1024 (ix2 p q) (ix2 0 q) (fun a => by
      match a with
      | ⟨0, _⟩ => rfl
      | ⟨1, _⟩ => rfl)]
  rfl

/-- The linear layer on the whole array of rows: at (r, e), row r times row e of the weight, plus the bias at e. -/
def linAt (X : S8192x1024.Idx → EReal) (W : S1024x1024.Idx → EReal) (B : S1x1024.Idx → EReal) (r : Fin 8192) (e : Fin 1024) : EReal :=
  (∑ k : Fin 1024, X (ix2 r k) * W (ix2 e k)) + B (ix2 0 e)
def linArr (X : S8192x1024.Idx → EReal) (W : S1024x1024.Idx → EReal) (B : S1x1024.Idx → EReal) : S8192x1024.Idx → EReal :=
  fun i => linAt X W B ⟨(i 0).val, idx2_lt0 i⟩ ⟨(i 1).val, idx2_lt1 i⟩

/-- The printed index maps over the sixteen points: the row blocks move with the point, the weight and the bias stay. -/
theorem idx_facts0_7 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_7.index t (0 : Fin 2) = t.val ∧ win0_7.index t (1 : Fin 2) = 0 ∧ t.val < 16 :=
  (by decide +kernel : ∀ t : Fin grid0.N, _)

/-- What point t writes back to output 7 is block t of the linear layer of the arrays as the launch finds them. -/
theorem flushed0_7_eq (V : (c : Dev nD) → (b : Ref sig .tc) → Buf (Elt Ideal) ((c : Thread nD τ).loc b)) (c : Dev nD) (t : Fin cfg0.N) :
    (dat0 V c).flushed 7 t = ((cfg0.win 7).blk t).view.read (Elt Ideal) (linArr (V c main_v0) (V c main_v1) (V c main_v5)) := by
  show (cfg0.win 7).cut (grid0.coords t) ((dat0 V c).after 7 t) = _
  rw [after0_7]
  unfold out0_7
  rw [View.canon_unit_zero hz2]
  simp only [View.ld_unit_zero (S := S512x1024) hz2, View.ld_unit_zero (S := S1024x1024) hz2, View.ld_unit_zero (S := S1x1024) hz2]
  obtain ⟨e0, e1, e2, e3, e4, e5, e6, e7, e8⟩ := idx_facts0_7 t
  funext j
  obtain ⟨p, q, rfl⟩ : ∃ (p : Fin 512) (q : Fin 1024), j = ix2 p q := ⟨j 0, j 1, eq_ix2 j⟩
  show k0_pay2 (F := Ideal) (iblk0 V c 0 t) (iblk0 V c 1 t) (iblk0 V c 2 t) (ix2 p q) = linArr (V c main_v0) (V c main_v1) (V c main_v5) (((cfg0.win 7).blk t).view.emb (ix2 p q))
  refine (pay_lin2_apply (iblk0 V c 0 t) (iblk0 V c 1 t) (iblk0 V c 2 t) p q).trans ?_
  unfold linArr linAt
  have h0 : ∀ k : Fin 1024, iblk0 V c 0 t (ix2 p k) = V c main_v0 (ix2 (⟨((((cfg0.win 7).blk t).view.emb (ix2 p q)) 0).val, idx2_lt0 _⟩ : Fin 8192) k) := fun k => by
    show V c main_v0 (((cfg0.win 0).blk t).view.emb (ix2 p k)) = _
    refine congrArg (V c main_v0) (funext fun a => Fin.ext ?_)
    match a with
    | ⟨0, _⟩ => show win0_0.index t (0 : Fin 2) * 512 + 1 * p.val = win0_7.index t (0 : Fin 2) * 512 + 1 * p.val; omega
    | ⟨1, _⟩ => show win0_0.index t (1 : Fin 2) * 1024 + 1 * k.val = k.val; omega
  have h1 : ∀ k : Fin 1024, iblk0 V c 1 t (ix2 q k) = V c main_v1 (ix2 (⟨((((cfg0.win 7).blk t).view.emb (ix2 p q)) 1).val, idx2_lt1 _⟩ : Fin 1024) k) := fun k => by
    show V c main_v1 (((cfg0.win 1).blk t).view.emb (ix2 q k)) = _
    refine congrArg (V c main_v1) (funext fun a => Fin.ext ?_)
    match a with
    | ⟨0, _⟩ => show win0_1.index t (0 : Fin 2) * 1024 + 1 * q.val = win0_7.index t (1 : Fin 2) * 1024 + 1 * q.val; omega
    | ⟨1, _⟩ => show win0_1.index t (1 : Fin 2) * 1024 + 1 * k.val = k.val; omega
  have h2 : iblk0 V c 2 t (ix2 0 q) = V c main_v5 (ix2 0 (⟨((((cfg0.win 7).blk t).view.emb (ix2 p q)) 1).val, idx2_lt1 _⟩ : Fin 1024)) := by
    show V c main_v5 (((cfg0.win 2).blk t).view.emb (ix2 0 q)) = _
    refine congrArg (V c main_v5) (funext fun a => Fin.ext ?_)
    match a with
    | ⟨0, _⟩ => show win0_2.index t (0 : Fin 2) * 1 + 1 * 0 = 0; omega
    | ⟨1, _⟩ => show win0_2.index t (1 : Fin 2) * 1024 + 1 * q.val = win0_7.index t (1 : Fin 2) * 1024 + 1 * q.val; omega
  rw [h2]
  exact congrArg (· + _) (Finset.sum_congr rfl fun k _ => by rw [h0 k, h1 k])

/-- An index of the array is in point t's block iff each coordinate is in the block's range on its axis. -/
theorem mem_blk0_7 (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v11_0).slice (win0_7.rect t)).set ↔ _
  rw [View.set_slice_whole, Rect.mem_set_unit]
  exact Iff.rfl

/-- Output 7 after the launch: the linear layer of the arrays as the launch finds them; row r lies in block r / 512. -/
theorem final0_7 (V : (c : Dev nD) → (b : Ref sig .tc) → Buf (Elt Ideal) ((c : Thread nD τ).loc b)) (c : Dev nD) :
    (dat0 V c).arrAt 7 cfg0.N = linArr (V c main_v0) (V c main_v1) (V c main_v5) :=
  (dat0 V c).arrAt_eq_of_cover 7 _ (fun t _ => flushed0_7_eq V c t) (fun i => by
    have hi0 : (i 0).val < 8192 := idx2_lt0 i
    have hi1 : (i 1).val < 1024 := idx2_lt1 i
    have hN : grid0.N = 16 := N_0
    have ht : (i 0).val / 512 < cfg0.N := by show _ < grid0.N; omega
    refine ⟨⟨(i 0).val / 512, ht⟩, flush0_7 _, ?_⟩
    rw [mem_blk0_7]
    obtain ⟨-, -, -, -, -, -, e6, e7, -⟩ := idx_facts0_7 ⟨(i 0).val / 512, ht⟩
    intro a
    match a with
    | ⟨0, _⟩ =>
      show win0_7.index ⟨(i 0).val / 512, ht⟩ (0 : Fin 2) * 512 ≤ (i 0).val ∧ (i 0).val < win0_7.index ⟨(i 0).val / 512, ht⟩ (0 : Fin 2) * 512 + 512
      rw [e6]; show (i 0).val / 512 * 512 ≤ (i 0).val ∧ (i 0).val < (i 0).val / 512 * 512 + 512; omega
    | ⟨1, _⟩ =>
      show win0_7.index ⟨(i 0).val / 512, ht⟩ (1 : Fin 2) * 1024 ≤ (i 1).val ∧ (i 1).val < win0_7.index ⟨(i 0).val / 512, ht⟩ (1 : Fin 2) * 1024 + 1024
      rw [e7]; omega)

/-- The printed index maps over the sixteen points: the row blocks move with the point, the weight and the bias stay. -/
theorem idx_facts0_8 : ∀ t : Fin cfg0.N, win0_0.index t (0 : Fin 2) = t.val ∧ win0_0.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_8.index t (0 : Fin 2) = t.val ∧ win0_8.index t (1 : Fin 2) = 0 ∧ t.val < 16 :=
  (by decide +kernel : ∀ t : Fin grid0.N, _)

/-- What point t writes back to output 8 is block t of the linear layer of the arrays as the launch finds them. -/
theorem flushed0_8_eq (V : (c : Dev nD) → (b : Ref sig .tc) → Buf (Elt Ideal) ((c : Thread nD τ).loc b)) (c : Dev nD) (t : Fin cfg0.N) :
    (dat0 V c).flushed 8 t = ((cfg0.win 8).blk t).view.read (Elt Ideal) (linArr (V c main_v0) (V c main_v2) (V c main_v6)) := by
  show (cfg0.win 8).cut (grid0.coords t) ((dat0 V c).after 8 t) = _
  rw [after0_8]
  unfold out0_8
  rw [View.canon_unit_zero hz2]
  simp only [View.ld_unit_zero (S := S512x1024) hz2, View.ld_unit_zero (S := S1024x1024) hz2, View.ld_unit_zero (S := S1x1024) hz2]
  obtain ⟨e0, e1, e2, e3, e4, e5, e6, e7, e8⟩ := idx_facts0_8 t
  funext j
  obtain ⟨p, q, rfl⟩ : ∃ (p : Fin 512) (q : Fin 1024), j = ix2 p q := ⟨j 0, j 1, eq_ix2 j⟩
  show k0_pay3 (F := Ideal) (iblk0 V c 0 t) (iblk0 V c 3 t) (iblk0 V c 4 t) (ix2 p q) = linArr (V c main_v0) (V c main_v2) (V c main_v6) (((cfg0.win 8).blk t).view.emb (ix2 p q))
  refine (pay_lin3_apply (iblk0 V c 0 t) (iblk0 V c 3 t) (iblk0 V c 4 t) p q).trans ?_
  unfold linArr linAt
  have h0 : ∀ k : Fin 1024, iblk0 V c 0 t (ix2 p k) = V c main_v0 (ix2 (⟨((((cfg0.win 8).blk t).view.emb (ix2 p q)) 0).val, idx2_lt0 _⟩ : Fin 8192) k) := fun k => by
    show V c main_v0 (((cfg0.win 0).blk t).view.emb (ix2 p k)) = _
    refine congrArg (V c main_v0) (funext fun a => Fin.ext ?_)
    match a with
    | ⟨0, _⟩ => show win0_0.index t (0 : Fin 2) * 512 + 1 * p.val = win0_8.index t (0 : Fin 2) * 512 + 1 * p.val; omega
    | ⟨1, _⟩ => show win0_0.index t (1 : Fin 2) * 1024 + 1 * k.val = k.val; omega
  have h1 : ∀ k : Fin 1024, iblk0 V c 3 t (ix2 q k) = V c main_v2 (ix2 (⟨((((cfg0.win 8).blk t).view.emb (ix2 p q)) 1).val, idx2_lt1 _⟩ : Fin 1024) k) := fun k => by
    show V c main_v2 (((cfg0.win 3).blk t).view.emb (ix2 q k)) = _
    refine congrArg (V c main_v2) (funext fun a => Fin.ext ?_)
    match a with
    | ⟨0, _⟩ => show win0_3.index t (0 : Fin 2) * 1024 + 1 * q.val = win0_8.index t (1 : Fin 2) * 1024 + 1 * q.val; omega
    | ⟨1, _⟩ => show win0_3.index t (1 : Fin 2) * 1024 + 1 * k.val = k.val; omega
  have h2 : iblk0 V c 4 t (ix2 0 q) = V c main_v6 (ix2 0 (⟨((((cfg0.win 8).blk t).view.emb (ix2 p q)) 1).val, idx2_lt1 _⟩ : Fin 1024)) := by
    show V c main_v6 (((cfg0.win 4).blk t).view.emb (ix2 0 q)) = _
    refine congrArg (V c main_v6) (funext fun a => Fin.ext ?_)
    match a with
    | ⟨0, _⟩ => show win0_4.index t (0 : Fin 2) * 1 + 1 * 0 = 0; omega
    | ⟨1, _⟩ => show win0_4.index t (1 : Fin 2) * 1024 + 1 * q.val = win0_8.index t (1 : Fin 2) * 1024 + 1 * q.val; omega
  rw [h2]
  exact congrArg (· + _) (Finset.sum_congr rfl fun k _ => by rw [h0 k, h1 k])

/-- An index of the array is in point t's block iff each coordinate is in the block's range on its axis. -/
theorem mem_blk0_8 (t : Fin cfg0.N) (i : S8192x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v11_1).slice (win0_8.rect t)).set ↔ _
  rw [View.set_slice_whole, Rect.mem_set_unit]
  exact Iff.rfl

/-- Output 8 after the launch: the linear layer of the arrays as the launch finds them; row r lies in block r / 512. -/
theorem final0_8 (V : (c : Dev nD) → (b : Ref sig .tc) → Buf (Elt Ideal) ((c : Thread nD τ).loc b)) (c : Dev nD) :
    (dat0 V c).arrAt 8 cfg0.N = linArr (V c main_v0) (V c main_v2) (V c main_v6) :=
  (dat0 V c).arrAt_eq_of_cover 8 _ (fun t _ => flushed0_8_eq V c t) (fun i => by
    have hi0 : (i 0).val < 8192 := idx2_lt0 i
    have hi1 : (i 1).val < 1024 := idx2_lt1 i
    have hN : grid0.N = 16 := N_0
    have ht : (i 0).val / 512 < cfg0.N := by show _ < grid0.N; omega
    refine ⟨⟨(i 0).val / 512, ht⟩, flush0_8 _, ?_⟩
    rw [mem_blk0_8]
    obtain ⟨-, -, -, -, -, -, e6, e7, -⟩ := idx_facts0_8 ⟨(i 0).val / 512, ht⟩
    intro a
    match a with
    | ⟨0, _⟩ =>
      show win0_8.index ⟨(i 0).val / 512, ht⟩ (0 : Fin 2) * 512 ≤ (i 0).val ∧ (i 0).val < win0_8.index ⟨(i 0).val / 512, ht⟩ (0 : Fin 2) * 512 + 512
      rw [e6]; show (i 0).val / 512 * 512 ≤ (i 0).val ∧ (i 0).val < (i 0).val / 512 * 512 + 512; omega
    | ⟨1, _⟩ =>
      show win0_8.index ⟨(i 0).val / 512, ht⟩ (1 : Fin 2) * 1024 ≤ (i 1).val ∧ (i 1).val < win0_8.index ⟨(i 0).val / 512, ht⟩ (1 : Fin 2) * 1024 + 1024
      rw [e7]; omega)

/-- The printed index maps over the sixteen points: the row blocks move with the point, the weight and the bias stay. -/
theorem idx_facts0_9 : ∀ t : Fin cfg0.N, win0_0.index t (0 : Fin 2) = t.val ∧ win0_0.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_9.index t (0 : Fin 2) = t.val ∧ win0_9.index t (1 : Fin 2) = 0 ∧ t.val < 16 :=
  (by decide +kernel : ∀ t : Fin grid0.N, _)

/-- What point t writes back to output 9 is block t of the linear layer of the arrays as the launch finds them. -/
theorem flushed0_9_eq (V : (c : Dev nD) → (b : Ref sig .tc) → Buf (Elt Ideal) ((c : Thread nD τ).loc b)) (c : Dev nD) (t : Fin cfg0.N) :
    (dat0 V c).flushed 9 t = ((cfg0.win 9).blk t).view.read (Elt Ideal) (linArr (V c main_v0) (V c main_v3) (V c main_v7)) := by
  show (cfg0.win 9).cut (grid0.coords t) ((dat0 V c).after 9 t) = _
  rw [after0_9]
  unfold out0_9
  rw [View.canon_unit_zero hz2]
  simp only [View.ld_unit_zero (S := S512x1024) hz2, View.ld_unit_zero (S := S1024x1024) hz2, View.ld_unit_zero (S := S1x1024) hz2]
  obtain ⟨e0, e1, e2, e3, e4, e5, e6, e7, e8⟩ := idx_facts0_9 t
  funext j
  obtain ⟨p, q, rfl⟩ : ∃ (p : Fin 512) (q : Fin 1024), j = ix2 p q := ⟨j 0, j 1, eq_ix2 j⟩
  show k0_pay4 (F := Ideal) (iblk0 V c 0 t) (iblk0 V c 5 t) (iblk0 V c 6 t) (ix2 p q) = linArr (V c main_v0) (V c main_v3) (V c main_v7) (((cfg0.win 9).blk t).view.emb (ix2 p q))
  refine (pay_lin4_apply (iblk0 V c 0 t) (iblk0 V c 5 t) (iblk0 V c 6 t) p q).trans ?_
  unfold linArr linAt
  have h0 : ∀ k : Fin 1024, iblk0 V c 0 t (ix2 p k) = V c main_v0 (ix2 (⟨((((cfg0.win 9).blk t).view.emb (ix2 p q)) 0).val, idx2_lt0 _⟩ : Fin 8192) k) := fun k => by
    show V c main_v0 (((cfg0.win 0).blk t).view.emb (ix2 p k)) = _
    refine congrArg (V c main_v0) (funext fun a => Fin.ext ?_)
    match a with
    | ⟨0, _⟩ => show win0_0.index t (0 : Fin 2) * 512 + 1 * p.val = win0_9.index t (0 : Fin 2) * 512 + 1 * p.val; omega
    | ⟨1, _⟩ => show win0_0.index t (1 : Fin 2) * 1024 + 1 * k.val = k.val; omega
  have h1 : ∀ k : Fin 1024, iblk0 V c 5 t (ix2 q k) = V c main_v3 (ix2 (⟨((((cfg0.win 9).blk t).view.emb (ix2 p q)) 1).val, idx2_lt1 _⟩ : Fin 1024) k) := fun k => by
    show V c main_v3 (((cfg0.win 5).blk t).view.emb (ix2 q k)) = _
    refine congrArg (V c main_v3) (funext fun a => Fin.ext ?_)
    match a with
    | ⟨0, _⟩ => show win0_5.index t (0 : Fin 2) * 1024 + 1 * q.val = win0_9.index t (1 : Fin 2) * 1024 + 1 * q.val; omega
    | ⟨1, _⟩ => show win0_5.index t (1 : Fin 2) * 1024 + 1 * k.val = k.val; omega
  have h2 : iblk0 V c 6 t (ix2 0 q) = V c main_v7 (ix2 0 (⟨((((cfg0.win 9).blk t).view.emb (ix2 p q)) 1).val, idx2_lt1 _⟩ : Fin 1024)) := by
    show V c main_v7 (((cfg0.win 6).blk t).view.emb (ix2 0 q)) = _
    refine congrArg (V c main_v7) (funext fun a => Fin.ext ?_)
    match a with
    | ⟨0, _⟩ => show win0_6.index t (0 : Fin 2) * 1 + 1 * 0 = 0; omega
    | ⟨1, _⟩ => show win0_6.index t (1 : Fin 2) * 1024 + 1 * q.val = win0_9.index t (1 : Fin 2) * 1024 + 1 * q.val; omega
  rw [h2]
  exact congrArg (· + _) (Finset.sum_congr rfl fun k _ => by rw [h0 k, h1 k])

/-- An index of the array is in point t's block iff each coordinate is in the block's range on its axis. -/
theorem mem_blk0_9 (t : Fin cfg0.N) (i : S8192x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v11_2).slice (win0_9.rect t)).set ↔ _
  rw [View.set_slice_whole, Rect.mem_set_unit]
  exact Iff.rfl

/-- Output 9 after the launch: the linear layer of the arrays as the launch finds them; row r lies in block r / 512. -/
theorem final0_9 (V : (c : Dev nD) → (b : Ref sig .tc) → Buf (Elt Ideal) ((c : Thread nD τ).loc b)) (c : Dev nD) :
    (dat0 V c).arrAt 9 cfg0.N = linArr (V c main_v0) (V c main_v3) (V c main_v7) :=
  (dat0 V c).arrAt_eq_of_cover 9 _ (fun t _ => flushed0_9_eq V c t) (fun i => by
    have hi0 : (i 0).val < 8192 := idx2_lt0 i
    have hi1 : (i 1).val < 1024 := idx2_lt1 i
    have hN : grid0.N = 16 := N_0
    have ht : (i 0).val / 512 < cfg0.N := by show _ < grid0.N; omega
    refine ⟨⟨(i 0).val / 512, ht⟩, flush0_9 _, ?_⟩
    rw [mem_blk0_9]
    obtain ⟨-, -, -, -, -, -, e6, e7, -⟩ := idx_facts0_9 ⟨(i 0).val / 512, ht⟩
    intro a
    match a with
    | ⟨0, _⟩ =>
      show win0_9.index ⟨(i 0).val / 512, ht⟩ (0 : Fin 2) * 512 ≤ (i 0).val ∧ (i 0).val < win0_9.index ⟨(i 0).val / 512, ht⟩ (0 : Fin 2) * 512 + 512
      rw [e6]; show (i 0).val / 512 * 512 ≤ (i 0).val ∧ (i 0).val < (i 0).val / 512 * 512 + 512; omega
    | ⟨1, _⟩ =>
      show win0_9.index ⟨(i 0).val / 512, ht⟩ (1 : Fin 2) * 1024 ≤ (i 1).val ∧ (i 1).val < win0_9.index ⟨(i 0).val / 512, ht⟩ (1 : Fin 2) * 1024 + 1024
      rw [e7]; omega)

end Cert.KernelValue

end
-- ==== Proof.Spec.lean ====
/-
  The function both programs compute, written once over plain coordinates.

  Multi-head self-attention followed by an output projection, a residual connection and a layer normalisation,
  on x : [4, 2048, 1024] with 16 heads of width 64:

    Q, K, V = x · Wᵀ + b                       (three linear layers, contraction over the 1024 model coordinates)
    per batch n and head h, on the 64 columns `col h d` of Q, K, V:
      score i j = sc (∑ d, Q i d · K j d)       (`sc`: the scaling by 1/8)
      m i       = the maximum of row i of the scores, folded from −∞
      p i j     = exp (score i j − m i),   l i = ∑ j, p i j
      a i j     = nrm (p i j) (l i)             (`nrm`: the quotient p / l)
      ctx i d   = ∑ j, a i j · V j d
    y = ctx · Woᵀ + bo,   r = x + y
    out = nrm (r − μ) (√(var + ε)) · γ + β,     μ and var the mean and the variance of a row of r.

  The two programs differ only in how they spell the scaling and the two quotients: one multiplies by the
  constant 0.125 and by a reciprocal `1 / l`, the other divides by 8 and by `l`. The spellings are the parameters
  `sc` and `nrm`; `scMul`/`nrmMul` and `scDiv`/`nrmDiv` are the two choices.
-/
import Idealize.ShloMosaic.PureOps.Ideal
import Idealize.ShloMosaic.Lib.ValueIdx

noncomputable section

namespace Cert.Spec

open Idealize.ShloMosaic Idealize.ShloMosaic.ValueIdx

/-- An array [4, 2048, 1024], [1024, 1024], [1024] of extended reals. -/
abbrev A3 := (⟨3, ![4, 2048, 1024]⟩ : Shape).Idx → EReal
abbrev A2 := (⟨2, ![1024, 1024]⟩ : Shape).Idx → EReal
abbrev A1 := (⟨1, ![1024]⟩ : Shape).Idx → EReal

/-- The float constants the programs spell, as the extended reals they denote. -/
abbrev cEighth : EReal := Ideal.ofBits .f32 0x3E000000#32   -- 0.125
abbrev cEight : EReal := Ideal.ofBits .f32 0x41000000#32    -- 8
abbrev cNegInf : EReal := Ideal.ofBits .f32 0xFF800000#32   -- −∞
abbrev cOne : EReal := Ideal.ofBits .f32 0x3F800000#32      -- 1
abbrev cN : EReal := Ideal.ofBits .f32 0x44800000#32        -- 1024
abbrev cEps : EReal := Ideal.ofBits .f32 0x3727C5AC#32      -- the float nearest 1e-5

/-- An extended real that is a real number (neither infinity): what a finite float denotes. -/
def IsReal (e : EReal) : Prop := ∃ r : ℝ, e = (r : EReal)

/-- The scaling of a score, spelled as a product with 0.125 or as a quotient by 8. -/
def scMul (t : EReal) : EReal := t * cEighth
def scDiv (t : EReal) : EReal := Ideal.div t cEight
/-- A quotient `p / l`, spelled as a product with the reciprocal or as the quotient itself. -/
def nrmMul (p l : EReal) : EReal := p * Ideal.div cOne l
def nrmDiv (p l : EReal) : EReal := Ideal.div p l

/-- Column `d` of head `h` among the 1024 model coordinates. -/
def col (h : Fin 16) (d : Fin 64) : Fin 1024 := ⟨h.val * 64 + d.val, by have := h.isLt; have := d.isLt; omega⟩
/-- The head and the in-head coordinate of a model coordinate. -/
def headOf (e : Fin 1024) : Fin 16 := ⟨e.val / 64, by have := e.isLt; omega⟩
def inHead (e : Fin 1024) : Fin 64 := ⟨e.val % 64, Nat.mod_lt _ (by norm_num)⟩

/-- A linear layer `x · Wᵀ + b` at batch `n`, position `s`, output coordinate `e`. -/
def proj (x : A3) (W : A2) (b : A1) (n : Fin 4) (s : Fin 2048) (e : Fin 1024) : EReal :=
  (∑ d : Fin 1024, x (ix3 n s d) * W (ix2 e d)) + b (ix1 e)

section Head
variable (sc : EReal → EReal) (nrm : EReal → EReal → EReal)
variable (q k v : Fin 2048 → Fin 64 → EReal)

/-- One head's scaled score of query `i` against key `j`. -/
def score (i j : Fin 2048) : EReal := sc (∑ d : Fin 64, q i d * k j d)
/-- The maximum of a row of scores, folded from −∞. -/
def rowMax (i : Fin 2048) : EReal := (Finset.univ : Finset (Fin 2048)).fold max cNegInf (fun j => score sc q k i j)
/-- The unnormalised softmax weight and the row's normaliser. -/
def pexp (i j : Fin 2048) : EReal := Ideal.exp (score sc q k i j - rowMax sc q k i)
def psum (i : Fin 2048) : EReal := ∑ j : Fin 2048, pexp sc q k i j
/-- The softmax weight. -/
def attw (i j : Fin 2048) : EReal := nrm (pexp sc q k i j) (psum sc q k i)
/-- One head's context vector of query `i`, coordinate `d`. -/
def ctxHead (i : Fin 2048) (d : Fin 64) : EReal := ∑ j : Fin 2048, attw sc nrm q k i j * v j d
end Head

/-- One row's layer normalisation at coordinate `e`. -/
def rowMean (r : Fin 1024 → EReal) : EReal := Ideal.div (∑ e : Fin 1024, r e) cN
def rowVar (r : Fin 1024 → EReal) : EReal := Ideal.div (∑ e : Fin 1024, (r e - rowMean r) * (r e - rowMean r)) cN
def lnRow (nrm : EReal → EReal → EReal) (r g β : Fin 1024 → EReal) (e : Fin 1024) : EReal :=
  nrm (r e - rowMean r) (Ideal.sqrt (rowVar r + cEps)) * g e + β e

section Whole
variable (sc : EReal → EReal) (nrm : EReal → EReal → EReal)
variable (x : A3) (Wq : A2) (bq : A1) (Wk : A2) (bk : A1) (Wv : A2) (bv : A1) (Wo : A2) (bo : A1) (g β : A1)

/-- The attention context at batch `n`, position `s`, model coordinate `e`: head `e / 64`, in-head coordinate `e % 64`. -/
def ctx (n : Fin 4) (s : Fin 2048) (e : Fin 1024) : EReal :=
  ctxHead sc nrm (fun i d => proj x Wq bq n i (col (headOf e) d)) (fun j d => proj x Wk bk n j (col (headOf e) d))
    (fun j d => proj x Wv bv n j (col (headOf e) d)) s (inHead e)
/-- The residual row `x + (ctx · Woᵀ + bo)`. -/
def resid (n : Fin 4) (s : Fin 2048) (e : Fin 1024) : EReal :=
  x (ix3 n s e) + ((∑ d : Fin 1024, ctx sc nrm x Wq bq Wk bk Wv bv n s d * Wo (ix2 e d)) + bo (ix1 e))
/-- The whole result at an index of [4, 2048, 1024]. -/
def out : A3 := fun i =>
  lnRow nrm (fun e => resid sc nrm x Wq bq Wk bk Wv bv Wo bo (i 0) (i 1) e) (fun e => g (ix1 e)) (fun e => β (ix1 e)) (i 2)
end Whole

end Cert.Spec

end
-- ==== Proof.KDefs.lean ====
/-
  The second and third launches' results as whole-array functions of the arrays the launches find.
  • attention on arrays [4, 2048, 1024] of queries, keys and values: at (n, s, e) the context vector of head e / 64
    at query s, coordinate e % 64, from the 64 columns of that head;
  • one point's attention block [1, 512, 128] (two heads, 64 lanes each) as one function of its three input blocks;
  • output projection, residual and layer normalisation on arrays of rows [8192, 1024].
-/
import proofs.«116996_j188978561294_2_alg».proof.Proof.Gen.KernelIdeal
import proofs.«116996_j188978561294_2_alg».proof.Proof.Spec
import Idealize.ShloMosaic.Lib.ValueIdx

noncomputable section

namespace Cert.KernelValue

open Cert.KernelIdeal Idealize.ShloMosaic Idealize.ShloMosaic.ValueIdx
open Cert.Spec (scMul nrmMul ctxHead col headOf inHead)

/-- The lane of coordinate `d` of head `hh` of a pair. -/
def laneOf (hh : Fin 2) (d : Fin 64) : Fin 128 := ⟨hh.val * 64 + d.val, by have := hh.isLt; have := d.isLt; omega⟩

/-- One point's output block as ONE function of its three input blocks. -/
def attnBlk (x0 : S1x512x128.Idx → EReal) (x1 x2 : S1x2048x128.Idx → EReal) : S1x512x128.Idx → EReal := fun y =>
  ctxHead scMul nrmMul
    (fun _ dd => x0 (ix3 (0 : Fin 1) (⟨(y 1).val, (y 1).isLt⟩ : Fin 512) (laneOf ⟨(y 2).val / 64, by have : (y 2).val < 128 := (y 2).isLt; omega⟩ dd)))
    (fun j dd => x1 (ix3 (0 : Fin 1) j (laneOf ⟨(y 2).val / 64, by have : (y 2).val < 128 := (y 2).isLt; omega⟩ dd)))
    (fun j dd => x2 (ix3 (0 : Fin 1) j (laneOf ⟨(y 2).val / 64, by have : (y 2).val < 128 := (y 2).isLt; omega⟩ dd)))
    0 ⟨(y 2).val % 64, Nat.mod_lt _ (by norm_num)⟩

/-- Attention on whole arrays [4, 2048, 1024] of queries, keys and values: at (n, s, e), head e / 64. -/
def attnArr (Q K V : S4x2048x1024.Idx → EReal) : S4x2048x1024.Idx → EReal := fun i =>
  ctxHead scMul nrmMul
    (fun s d => Q (ix3 (⟨(i 0).val, (i 0).isLt⟩ : Fin 4) s (col (headOf ⟨(i 2).val, (i 2).isLt⟩) d)))
    (fun j d => K (ix3 (⟨(i 0).val, (i 0).isLt⟩ : Fin 4) j (col (headOf ⟨(i 2).val, (i 2).isLt⟩) d)))
    (fun j d => V (ix3 (⟨(i 0).val, (i 0).isLt⟩ : Fin 4) j (col (headOf ⟨(i 2).val, (i 2).isLt⟩) d)))
    ⟨(i 1).val, (i 1).isLt⟩ (inHead ⟨(i 2).val, (i 2).isLt⟩)

/-- Output projection of the context rows `C`, residual with the input rows `X`, and the row's layer normalisation. -/
def lnArr (C : S8192x1024.Idx → EReal) (W : S1024x1024.Idx → EReal) (B : S1x1024.Idx → EReal) (X : S8192x1024.Idx → EReal)
    (G Bt : S1x1024.Idx → EReal) : S8192x1024.Idx → EReal := fun i =>
  Cert.Spec.lnRow nrmMul
    (fun e => X (ix2 (⟨(i 0).val, idx2_lt0 i⟩ : Fin 8192) e) + ((∑ d : Fin 1024, C (ix2 (⟨(i 0).val, idx2_lt0 i⟩ : Fin 8192) d) * W (ix2 e d)) + B (ix2 0 e)))
    (fun e => G (ix2 0 e)) (fun e => Bt (ix2 0 e)) ⟨(i 1).val, idx2_lt1 i⟩

end Cert.KernelValue

end
-- ==== Proof.KCompose.lean ====
/-
  The kernel program's result is the specification in the kernel's spelling.

  The program is three launches among reshapes. With row r = n · 2048 + s of the [8192, 1024] view standing for batch n,
  position s (r / 2048 = n, r % 2048 = s):
    · the first launch's three outputs at (r, e) are the linear layers x · Wᵀ + b at (n, s, e);
    · the second launch's output, attention on those three arrays, is at (n, s, e) the context of head e / 64;
    · the third launch's output at (r, e) is the layer normalisation of the row x + (context · Woᵀ + bo);
  and the result is that array viewed as [4, 2048, 1024]. What the second and third launches leave in their output arrays
  is taken as a hypothesis here.
-/
import proofs.«116996_j188978561294_2_alg».proof.Proof.KHost
import proofs.«116996_j188978561294_2_alg».proof.Proof.KReg0
import proofs.«116996_j188978561294_2_alg».proof.Proof.KDefs
import proofs.«116996_j188978561294_2_alg».proof.Proof.Spec

noncomputable section

namespace Cert.KernelValue

open Cert.KernelIdeal Cert.KernelIdeal.Gen Idealize.ShloMosaic Idealize.ShloMosaic.ValueIdx
open Idealize.ShloMosaic.TcCoe Idealize.SL.Sem
open Cert.Spec (scMul nrmMul A3 A2 A1)

/-- The row of the [8192, 1024] view that holds batch n, position s. -/
abbrev rowOf (n : Fin 4) (s : Fin 2048) : Fin 8192 := ⟨n.val * 2048 + s.val, by have := n.isLt; have := s.isLt; omega⟩

/-- Row n · 2048 + s splits back into batch n and position s. -/
theorem row_split (n : Fin 4) (s : Fin 2048) (d : Fin 1024) (ha : (rowOf n s).val / 2048 < 4) (hb : (rowOf n s).val % 2048 < 2048) :
    (ix3 (⟨(rowOf n s).val / 2048, ha⟩ : Fin 4) (⟨(rowOf n s).val % 2048, hb⟩ : Fin 2048) d : S4x2048x1024.Idx) = ix3 n s d :=
  funext fun a => Fin.ext (by
    have hn := n.isLt; have hs := s.isLt
    match a with
    | ⟨0, _⟩ => show (n.val * 2048 + s.val) / 2048 = n.val; omega
    | ⟨1, _⟩ => show (n.val * 2048 + s.val) % 2048 = s.val; omega
    | ⟨2, _⟩ => rfl)

/-! ## The three whole-array functions at explicit coordinates, from what their operands are there -/

/-- A linear layer of the rows, at row n · 2048 + s: the linear layer of the [4, 2048, 1024] array the rows come from. -/
theorem lin_rows (X : S8192x1024.Idx → EReal) (W : S1024x1024.Idx → EReal) (B : S1x1024.Idx → EReal) (x : A3) (W' : A2) (b' : A1)
    (n : Fin 4) (s : Fin 2048) (hX : ∀ d, X (ix2 (rowOf n s) d) = x (ix3 n s d)) (hW : W = W')
    (hB : ∀ e, B (ix2 0 e) = b' (ix1 e)) (e : Fin 1024) :
    linArr X W B (ix2 (rowOf n s) e) = Cert.Spec.proj x W' b' n s e := by
  subst hW
  show (∑ k : Fin 1024, X (ix2 (rowOf n s) k) * W (ix2 e k)) + B (ix2 0 e) = _
  simp only [hX, hB]
  rfl

/-- Attention on three arrays, at (n, s, e): the context of head e / 64 from the head's columns of the three arrays. -/
theorem attn_at (Q K V : S4x2048x1024.Idx → EReal) (q k v : Fin 4 → Fin 2048 → Fin 1024 → EReal)
    (hQ : ∀ n s e, Q (ix3 n s e) = q n s e) (hK : ∀ n s e, K (ix3 n s e) = k n s e) (hV : ∀ n s e, V (ix3 n s e) = v n s e)
    (n : Fin 4) (s : Fin 2048) (e : Fin 1024) :
    attnArr Q K V (ix3 n s e)
      = Cert.Spec.ctxHead scMul nrmMul (fun i d => q n i (Cert.Spec.col (Cert.Spec.headOf e) d)) (fun j d => k n j (Cert.Spec.col (Cert.Spec.headOf e) d)) (fun j d => v n j (Cert.Spec.col (Cert.Spec.headOf e) d))
          s (Cert.Spec.inHead e) := by
  show Cert.Spec.ctxHead scMul nrmMul (fun i d => Q (ix3 n i (Cert.Spec.col (Cert.Spec.headOf e) d))) (fun j d => K (ix3 n j (Cert.Spec.col (Cert.Spec.headOf e) d)))
      (fun j d => V (ix3 n j (Cert.Spec.col (Cert.Spec.headOf e) d))) s (Cert.Spec.inHead e) = _
  simp only [hQ, hK, hV]

/-- Projection, residual and layer normalisation of the rows, at row n · 2048 + s. -/
theorem ln_at (C : S8192x1024.Idx → EReal) (W : S1024x1024.Idx → EReal) (B : S1x1024.Idx → EReal) (X : S8192x1024.Idx → EReal)
    (G Bt : S1x1024.Idx → EReal) (x : A3) (cx : Fin 1024 → EReal) (Wo : A2) (bo g β : A1) (n : Fin 4) (s : Fin 2048)
    (hX : ∀ d, X (ix2 (rowOf n s) d) = x (ix3 n s d)) (hC : ∀ d, C (ix2 (rowOf n s) d) = cx d) (hW : W = Wo)
    (hB : ∀ e, B (ix2 0 e) = bo (ix1 e)) (hG : ∀ e, G (ix2 0 e) = g (ix1 e)) (hBt : ∀ e, Bt (ix2 0 e) = β (ix1 e)) (e : Fin 1024) :
    lnArr C W B X G Bt (ix2 (rowOf n s) e)
      = Cert.Spec.lnRow nrmMul (fun e' => x (ix3 n s e') + ((∑ d : Fin 1024, cx d * Wo (ix2 e' d)) + bo (ix1 e')))
          (fun e' => g (ix1 e')) (fun e' => β (ix1 e')) e := by
  subst hW
  show Cert.Spec.lnRow nrmMul
      (fun e' => X (ix2 (rowOf n s) e') + ((∑ d : Fin 1024, C (ix2 (rowOf n s) d) * W (ix2 e' d)) + B (ix2 0 e')))
      (fun e' => G (ix2 0 e')) (fun e' => Bt (ix2 0 e')) e = _
  simp only [hX, hC, hB, hG, hBt]

/-! ## The program's arrays -/

variable (m : (ℓ : Loc nD τ sig) → Buf (Elt Ideal) ℓ) (ρ : Dev nD → PrngReg) (c : Dev nD)

/-- The input rows before the first launch: row n · 2048 + s is x at (n, s). -/
theorem x_rows (n : Fin 4) (s : Fin 2048) (d : Fin 1024) :
    (V1 m ρ c main_v0 : S8192x1024.Idx → EReal) (ix2 (rowOf n s) d) = (ml m c main_arg0 : S4x2048x1024.Idx → EReal) (ix3 n s d) :=
  (V1_main_v0_apply m ρ c (rowOf n s) d).trans (congrArg (ml m c main_arg0 : S4x2048x1024.Idx → EReal) (row_split n s d _ _))

/-- (i) The first launch's outputs, viewed as [4, 2048, 1024], are the three linear layers. -/
theorem q_rows (n : Fin 4) (s : Fin 2048) (e : Fin 1024) :
    (V3 m ρ c main_v12 : S4x2048x1024.Idx → EReal) (ix3 n s e) = Cert.Spec.proj (ml m c main_arg0) (ml m c main_arg1) (ml m c main_arg2) n s e :=
  (V3_main_v12_apply m ρ c n s e).trans ((congrFun (final0_7 (V1 m ρ) c) _).trans
    (lin_rows (V1 m ρ c main_v0) _ _ (ml m c main_arg0) (ml m c main_arg1) (ml m c main_arg2) n s (x_rows m ρ c n s) (V1_main_v1 m ρ c)
      (fun e' => V1_main_v5_apply m ρ c 0 e') e))

theorem k_rows (n : Fin 4) (s : Fin 2048) (e : Fin 1024) :
    (V3 m ρ c main_v13 : S4x2048x1024.Idx → EReal) (ix3 n s e) = Cert.Spec.proj (ml m c main_arg0) (ml m c main_arg3) (ml m c main_arg4) n s e :=
  (V3_main_v13_apply m ρ c n s e).trans ((congrFun (final0_8 (V1 m ρ) c) _).trans
    (lin_rows (V1 m ρ c main_v0) _ _ (ml m c main_arg0) (ml m c main_arg3) (ml m c main_arg4) n s (x_rows m ρ c n s) (V1_main_v2 m ρ c)
      (fun e' => V1_main_v6_apply m ρ c 0 e') e))

theorem v_rows (n : Fin 4) (s : Fin 2048) (e : Fin 1024) :
    (V3 m ρ c main_v14 : S4x2048x1024.Idx → EReal) (ix3 n s e) = Cert.Spec.proj (ml m c main_arg0) (ml m c main_arg5) (ml m c main_arg6) n s e :=
  (V3_main_v14_apply m ρ c n s e).trans ((congrFun (final0_9 (V1 m ρ) c) _).trans
    (lin_rows (V1 m ρ c main_v0) _ _ (ml m c main_arg0) (ml m c main_arg5) (ml m c main_arg6) n s (x_rows m ρ c n s) (V1_main_v3 m ρ c)
      (fun e' => V1_main_v7_apply m ρ c 0 e') e))

/-- (ii) Attention on the three arrays the second launch finds is the specified context. -/
theorem attn_rows (n : Fin 4) (s : Fin 2048) (e : Fin 1024) :
    attnArr (V3 m ρ c main_v12) (V3 m ρ c main_v13) (V3 m ρ c main_v14) (ix3 n s e)
      = Cert.Spec.ctx scMul nrmMul (ml m c main_arg0) (ml m c main_arg1) (ml m c main_arg2) (ml m c main_arg3) (ml m c main_arg4) (ml m c main_arg5) (ml m c main_arg6) n s e :=
  (attn_at (V3 m ρ c main_v12) (V3 m ρ c main_v13) (V3 m ρ c main_v14)
    (fun n s e => Cert.Spec.proj (ml m c main_arg0) (ml m c main_arg1) (ml m c main_arg2) n s e) (fun n s e => Cert.Spec.proj (ml m c main_arg0) (ml m c main_arg3) (ml m c main_arg4) n s e)
    (fun n s e => Cert.Spec.proj (ml m c main_arg0) (ml m c main_arg5) (ml m c main_arg6) n s e) (q_rows m ρ c) (k_rows m ρ c) (v_rows m ρ c) n s e).trans rfl

/-- The context rows before the third launch: row n · 2048 + s is the context at (n, s). -/
theorem c_rows (h1 : ∀ (V : (c : Dev nD) → (b : Ref sig .tc) → Buf (Elt Ideal) ((c : Thread nD τ).loc b)) (c : Dev nD),
      (dat1 V c).arrAt 3 cfg1.N = attnArr (V c main_v12) (V c main_v13) (V c main_v14))
    (n : Fin 4) (s : Fin 2048) (d : Fin 1024) :
    (V5 m ρ c main_v16 : S8192x1024.Idx → EReal) (ix2 (rowOf n s) d)
      = Cert.Spec.ctx scMul nrmMul (ml m c main_arg0) (ml m c main_arg1) (ml m c main_arg2) (ml m c main_arg3) (ml m c main_arg4) (ml m c main_arg5) (ml m c main_arg6) n s d :=
  (V5_main_v16_apply m ρ c (rowOf n s) d).trans ((congrFun (h1 (V3 m ρ) c) _).trans
    ((congrArg (attnArr (V3 m ρ c main_v12) (V3 m ρ c main_v13) (V3 m ρ c main_v14)) (row_split n s d _ _)).trans
      (attn_rows m ρ c n s d)))

/-- (iii) The third launch's output at row n · 2048 + s is the specified result at (n, s). -/
theorem ln_rows (h1 : ∀ (V : (c : Dev nD) → (b : Ref sig .tc) → Buf (Elt Ideal) ((c : Thread nD τ).loc b)) (c : Dev nD),
      (dat1 V c).arrAt 3 cfg1.N = attnArr (V c main_v12) (V c main_v13) (V c main_v14))
    (n : Fin 4) (s : Fin 2048) (e : Fin 1024) :
    lnArr (V5 m ρ c main_v16) (V5 m ρ c main_v4) (V5 m ρ c main_v8) (V5 m ρ c main_v0) (V5 m ρ c main_v9) (V5 m ρ c main_v10)
        (ix2 (rowOf n s) e)
      = Cert.Spec.out scMul nrmMul (ml m c main_arg0) (ml m c main_arg1) (ml m c main_arg2) (ml m c main_arg3) (ml m c main_arg4) (ml m c main_arg5) (ml m c main_arg6) (ml m c main_arg7) (ml m c main_arg8) (ml m c main_arg9) (ml m c main_arg10) (ix3 n s e) :=
  (ln_at (V5 m ρ c main_v16) (V5 m ρ c main_v4) (V5 m ρ c main_v8) (V5 m ρ c main_v0) (V5 m ρ c main_v9) (V5 m ρ c main_v10)
    (ml m c main_arg0) (fun d => Cert.Spec.ctx scMul nrmMul (ml m c main_arg0) (ml m c main_arg1) (ml m c main_arg2) (ml m c main_arg3) (ml m c main_arg4) (ml m c main_arg5) (ml m c main_arg6) n s d)
    (ml m c main_arg7) (ml m c main_arg8) (ml m c main_arg9) (ml m c main_arg10) n s
    (fun d => (congrFun (V5_keep_main_v0 m ρ c) _).trans (x_rows m ρ c n s d))
    (c_rows m ρ c h1 n s)
    ((V5_keep_main_v4 m ρ c).trans (V1_main_v4 m ρ c))
    (fun e' => (congrFun (V5_keep_main_v8 m ρ c) _).trans (V1_main_v8_apply m ρ c 0 e'))
    (fun e' => (congrFun (V5_keep_main_v9 m ρ c) _).trans (V1_main_v9_apply m ρ c 0 e'))
    (fun e' => (congrFun (V5_keep_main_v10 m ρ c) _).trans (V1_main_v10_apply m ρ c 0 e')) e).trans rfl

/-- (iv) The program's result, given what the second and third launches leave in their output arrays. -/
theorem kernel_value_of (h1 : ∀ (V : (c : Dev nD) → (b : Ref sig .tc) → Buf (Elt Ideal) ((c : Thread nD τ).loc b)) (c : Dev nD),
      (dat1 V c).arrAt 3 cfg1.N = attnArr (V c main_v12) (V c main_v13) (V c main_v14))
    (h2 : ∀ (V : (c : Dev nD) → (b : Ref sig .tc) → Buf (Elt Ideal) ((c : Thread nD τ).loc b)) (c : Dev nD),
      (dat2 V c).arrAt 6 cfg2.N = lnArr (V c main_v16) (V c main_v4) (V c main_v8) (V c main_v0) (V c main_v9) (V c main_v10))
    (m : (ℓ : Loc nD τ sig) → Buf (Elt Ideal) ℓ) (ρ : Dev nD → PrngReg) (c : Dev nD) :
    W7 m ρ c (Proc.devRef .tc main_v18)
      = Cert.Spec.out Cert.Spec.scMul Cert.Spec.nrmMul (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) := by
  funext i
  obtain ⟨n, s, e, rfl⟩ : ∃ (n : Fin 4) (s : Fin 2048) (e : Fin 1024), i = ix3 n s e := ⟨i 0, i 1, i 2, eq_ix3 i⟩
  exact (W7_main_v18_apply m ρ c n s e).trans ((congrFun (h2 (V5 m ρ) c) _).trans (ln_rows m ρ c h1 n s e))

end Cert.KernelValue

end
-- ==== Proof.LibColumn.lean ====
/-
  Two layout operations read at an index written by coordinates, for the COLUMN shape `[a, 1]`: the shape a
  reduction along the last axis of an `[a, b]` matrix passes through when its result is set back beside the matrix
  (a row statistic kept as a column and repeated along the row).
  • a vector `[a]` viewed as the column `[a, 1]` reads, at `(i, u)`, the vector at `i`;
  • a column `[a, 1]` repeated along its unit axis to `[a, b]` reads, at `(i, j)`, the column at `(i, 0)`.
  Both are the general "read at an index" lemmas of a shape cast and of a broadcast with the row-major position,
  respectively the per-axis coordinates, worked out at these two ranks.
-/
import Idealize.ShloMosaic.Lib.Pipeline.Value
import Idealize.ShloMosaic.Lib.ValueIdx

namespace Cert.Column

open Idealize.ShloMosaic Idealize.ShloMosaic.ValueIdx

variable {α : Type}

/-- An `[a]` vector cast to the column `[a, 1]` reads, at `(i, u)`, the vector at `i`, whatever the unit
    coordinate `u`: the row-major position of `(i, u)` in `[a, 1]` is `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated along its unit axis to `[a, b]` reads, at `(i, j)`, the column's entry of row `i`:
    on the first axis the coordinate is kept (or is `0` anyway when `a = 1`), on the unit axis it is `0`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Column
-- ==== Proof.KPay1.lean ====
/-
  The attention kernel's arithmetic read at an index.

  A block holds two heads side by side: lanes 0–63 and lanes 64–127 of its 128 lanes. For each head the body
  slices the head's 64 lanes out of the queries, keys and values, forms the scores q · kᵀ scaled by 0.125, takes
  the row maximum (folded from −∞), exponentiates the differences, sums each row, multiplies by the reciprocal
  of the row sum and contracts with the values. Read at the entry (p, d) this is the specification's context
  vector of one head, with the scaling and the quotient spelled as products.
-/
import proofs.«116996_j188978561294_2_alg».proof.Proof.Gen.KernelIdeal.Skeleton
import proofs.«116996_j188978561294_2_alg».proof.Proof.KDots
import proofs.«116996_j188978561294_2_alg».proof.Proof.LibColumn
import proofs.«116996_j188978561294_2_alg».proof.Proof.Spec
import Idealize.ShloMosaic.Lib.Pipeline.Value
import Idealize.ShloMosaic.Lib.ValueLayout
import Idealize.ShloMosaic.PureOps.Ideal.Laws

noncomputable section

namespace Cert.KernelValue

open Cert.KernelIdeal Cert.KernelIdeal.Gen Idealize.ShloMosaic Idealize.ShloMosaic.ValueIdx

/-- Lane `d` of the first head, and of the second head, among the 128 lanes of a block. -/
def lo (d : Fin 64) : Fin 128 := ⟨d.val, by have := d.isLt; omega⟩
def hi (d : Fin 64) : Fin 128 := ⟨64 + d.val, by have := d.isLt; omega⟩

/-- The index of a [512, 2048] matrix over row `p` with coordinate `k` inserted on the last axis is `(p, k)`. -/
theorem lift2048 (p : Fin 512) (k : Fin (S512x2048.size 1)) :
    reduces_S512x2048_S512.lift (ix1 p) k = ix2 p (k : Fin 2048) := by
  funext c
  apply Fin.ext
  refine (Shape.Reduces.lift_val reduces_S512x2048_S512 (ix1 p) k c).trans ?_
  unfold Shape.Reduces.liftVal
  match c with
  | ⟨0, _⟩ => rfl
  | ⟨1, _⟩ => rfl

/-- A sum along the last axis of a [512, 2048] matrix, read at row `p`, is the sum of that row's entries. -/
theorem rowsum2048 (w : FVec Ideal S512x2048 .f32) (hφ : FTy.f32 = FTy.f32 ∨ FTy.f32 = FTy.bf16)
    (hacc : (0x00000000#32 : BitVec 32) = 0x00000000#32) (p : Fin 512) :
    multiReduction (F := Ideal) .add [1] S512 w 0x00000000#32 reduces_S512x2048_S512 hφ hacc (ix1 p)
      = ∑ k : Fin 2048, w (ix2 p k) := by
  refine (Ideal.multiReduction_add_single w 0x00000000#32 reduces_S512x2048_S512 hφ hacc (ix1 p)).trans ?_
  exact Finset.sum_congr rfl fun k _ => congrArg w (lift2048 p k)

/-- A maximum along the last axis of a [512, 2048] matrix, read at row `p`, is the fold of `max` from −∞ over
    that row's entries. -/
theorem rowmax2048 (w : FVec Ideal S512x2048 .f32) (hφ : FTy.f32 = FTy.f32 ∨ FTy.f32 = FTy.bf16)
    (hacc : (0xFF800000#32 : BitVec 32) = 0xFF800000#32) (p : Fin 512) :
    multiReduction (F := Ideal) .maximumf [1] S512 w 0xFF800000#32 reduces_S512x2048_S512 hφ hacc (ix1 p)
      = (Finset.univ : Finset (Fin 2048)).fold max Cert.Spec.cNegInf (fun j => w (ix2 p j)) := by
  refine (Ideal.multiReduction_maximumf_single w 0xFF800000#32 reduces_S512x2048_S512 hφ hacc (ix1 p)).trans ?_
  exact congrArg (fun f => (Finset.univ : Finset (Fin 2048)).fold max Cert.Spec.cNegInf f)
    (funext fun k => congrArg w (lift2048 p k))

/-- An elementwise exponential at an index is the exponential of the entry. -/
theorem exp_apply {s : Shape} {φ : FTy} (a : FVec Ideal s φ) (i : s.Idx) :
    Idealize.ShloMosaic.exp a i = Ideal.exp (a i) := rfl

/-- The first 64 lanes of a 128-lane matrix, read at `(p, d)`, are the matrix at lane `lo d`. -/
theorem slice_lo512 (X : FVec Ideal S512x128 .bf16) (p : Fin 512) (d : Fin 64) :
    extractStridedSlice S512x64 ![0, 0] X slices_S512x128_o0_0_S512x64 (ix2 p d) = X (ix2 p (lo d)) :=
  slice2_axis1_apply 0 X slices_S512x128_o0_0_S512x64 p d (lo d) (Nat.zero_add _).symm

theorem slice_lo2048 (X : FVec Ideal S2048x128 .bf16) (p : Fin 2048) (d : Fin 64) :
    extractStridedSlice S2048x64 ![0, 0] X slices_S2048x128_o0_0_S2048x64 (ix2 p d) = X (ix2 p (lo d)) :=
  slice2_axis1_apply 0 X slices_S2048x128_o0_0_S2048x64 p d (lo d) (Nat.zero_add _).symm

/-- The last 64 lanes of a 128-lane matrix, read at `(p, d)`, are the matrix at lane `hi d`. -/
theorem slice_hi512 (X : FVec Ideal S512x128 .bf16) (p : Fin 512) (d : Fin 64) :
    extractStridedSlice S512x64 ![0, 64] X slices_S512x128_o0_64_S512x64 (ix2 p d) = X (ix2 p (hi d)) :=
  slice2_axis1_apply 64 X slices_S512x128_o0_64_S512x64 p d (hi d) rfl

theorem slice_hi2048 (X : FVec Ideal S2048x128 .bf16) (p : Fin 2048) (d : Fin 64) :
    extractStridedSlice S2048x64 ![0, 64] X slices_S2048x128_o0_64_S2048x64 (ix2 p d) = X (ix2 p (hi d)) :=
  slice2_axis1_apply 64 X slices_S2048x128_o0_64_S2048x64 p d (hi d) rfl

/-- The first head of a block: the stored context at `(p, d)` is the specification's context vector of the head
    whose queries, keys and values are lanes `lo` of the block's operands. -/
theorem pay_head_lo_apply (x0 : Vec Ideal S1x512x128 .bf16) (x1 x2 : Vec Ideal S1x2048x128 .bf16)
    (z : Fin 1) (p : Fin 512) (d : Fin 64) :
    k1_pay1 (F := Ideal) (k1_pay6 x0 x1 x2) (ix3 z p d)
      = Cert.Spec.ctxHead Cert.Spec.scMul Cert.Spec.nrmMul (fun _ dd => x0 (ix3 0 p (lo dd)))
          (fun j dd => x1 (ix3 0 j (lo dd))) (fun j dd => x2 (ix3 0 j (lo dd))) 0 d := by
  unfold k1_pay1 k1_pay6 k1_pay3 k1_pay4 k1_pay5
  dsimp only
  simp only [shapeCast_ab_1ab_apply, truncf_apply, matmul_ctx_apply, mulf_apply, divf_apply, subf_apply, exp_apply,
    broadcast_apply, Cert.Column.shapeCast_a_a1_apply, Cert.Column.broadcastTo_a1_ab_apply, slice_lo512, slice_lo2048,
    shapeCast_1ab_ab_apply, matmul_score_apply]
  rw [rowsum2048]
  simp only [mulf_apply, subf_apply, exp_apply, broadcast_apply, Cert.Column.shapeCast_a_a1_apply,
    Cert.Column.broadcastTo_a1_ab_apply, slice_lo512, slice_lo2048, shapeCast_1ab_ab_apply, matmul_score_apply]
  rw [rowmax2048]
  simp only [mulf_apply, broadcast_apply, slice_lo512, slice_lo2048, shapeCast_1ab_ab_apply, matmul_score_apply]
  unfold Cert.Spec.ctxHead Cert.Spec.attw Cert.Spec.nrmMul Cert.Spec.psum Cert.Spec.pexp Cert.Spec.rowMax
    Cert.Spec.score Cert.Spec.scMul
  rfl

/-- The second head of a block: the same with lanes `hi`. Here the exponentials and their row sums are computed
    first and the normalisation and the contraction with the values afterwards. -/
theorem pay_head_hi_apply (x0 : Vec Ideal S1x512x128 .bf16) (x1 x2 : Vec Ideal S1x2048x128 .bf16)
    (z : Fin 1) (p : Fin 512) (d : Fin 64) :
    k1_pay2 (F := Ideal) (k1_pay7 x2) (k1_pay8 x0 x1) (k1_pay9 x0 x1) (ix3 z p d)
      = Cert.Spec.ctxHead Cert.Spec.scMul Cert.Spec.nrmMul (fun _ dd => x0 (ix3 0 p (hi dd)))
          (fun j dd => x1 (ix3 0 j (hi dd))) (fun j dd => x2 (ix3 0 j (hi dd))) 0 d := by
  unfold k1_pay2 k1_pay9 k1_pay8 k1_pay7 k1_pay3 k1_pay4 k1_pay5
  dsimp only
  simp only [shapeCast_ab_1ab_apply, truncf_apply, matmul_ctx_apply, mulf_apply, divf_apply, subf_apply, exp_apply,
    broadcast_apply, Cert.Column.shapeCast_a_a1_apply, Cert.Column.broadcastTo_a1_ab_apply, slice_hi512, slice_hi2048,
    shapeCast_1ab_ab_apply, matmul_score_apply]
  rw [rowsum2048]
  simp only [mulf_apply, subf_apply, exp_apply, broadcast_apply, Cert.Column.shapeCast_a_a1_apply,
    Cert.Column.broadcastTo_a1_ab_apply, slice_hi512, slice_hi2048, shapeCast_1ab_ab_apply, matmul_score_apply]
  rw [rowmax2048]
  simp only [mulf_apply, broadcast_apply, slice_hi512, slice_hi2048, shapeCast_1ab_ab_apply, matmul_score_apply]
  unfold Cert.Spec.ctxHead Cert.Spec.attw Cert.Spec.nrmMul Cert.Spec.psum Cert.Spec.pexp Cert.Spec.rowMax
    Cert.Spec.score Cert.Spec.scMul
  rfl

end Cert.KernelValue

end
-- ==== Proof.KReg1.lean ====
/-
  The second launch: attention, one grid point per (batch, pair of heads, block of 512 queries). A point's output
  block [1, 512, 128] is written by two stores, one head each (lanes 0–63 and 64–127); at row p and lane l it is
  the context vector of head (l / 64) of the pair at query p, coordinate l % 64, from that head's 64 lanes of the
  query block and of the whole key and value blocks. Block (n, hp, qi) is rows 512·qi …, lanes 128·hp … of batch n
  of the whole-array function, and the 128 blocks cover the array.
-/
import proofs.«116996_j188978561294_2_alg».proof.Proof.Gen.KernelIdeal.Frame
import proofs.«116996_j188978561294_2_alg».proof.Proof.KPay1
import proofs.«116996_j188978561294_2_alg».proof.Proof.KDefs
import proofs.«116996_j188978561294_2_alg».proof.Proof.Spec
import Idealize.ShloMosaic.Lib.Pipeline.Value
import Idealize.ShloMosaic.Lib.ValueLayout

set_option maxRecDepth 16384

noncomputable section

namespace Cert.KernelValue

open Cert.KernelIdeal Cert.KernelIdeal.Gen Idealize.ShloMosaic Idealize.ShloMosaic.ValueIdx Idealize.ShloMosaic.TcCoe Idealize.SL.Sem
open Idealize.ShloMosaic.Pipeline (Dat)
open Cert.Spec (scMul nrmMul ctxHead col headOf inHead)

theorem hz3 : (![0, 0, 0] : Fin 3 → Nat) = fun _ => 0 := funext fun a => by fin_cases a <;> rfl

/-- A head's context vector at query row `i` reads the queries at row `i` only. -/
theorem ctxHead_congr_row (sc : EReal → EReal) (nrm : EReal → EReal → EReal) (q q' k v : Fin 2048 → Fin 64 → EReal) (i i' : Fin 2048)
    (h : ∀ d, q i d = q' i' d) (d : Fin 64) : ctxHead sc nrm q k v i d = ctxHead sc nrm q' k v i' d := by
  have hs : ∀ j, Cert.Spec.score sc q k i j = Cert.Spec.score sc q' k i' j := fun j => by
    unfold Cert.Spec.score; exact congrArg sc (Finset.sum_congr rfl fun d _ => by rw [h d])
  have hm : Cert.Spec.rowMax sc q k i = Cert.Spec.rowMax sc q' k i' := by
    unfold Cert.Spec.rowMax; exact congrArg (fun f => Finset.fold max Cert.Spec.cNegInf f Finset.univ) (funext hs)
  have hp : ∀ j, Cert.Spec.pexp sc q k i j = Cert.Spec.pexp sc q' k i' j := fun j => by
    unfold Cert.Spec.pexp; rw [hs j, hm]
  have hl : Cert.Spec.psum sc q k i = Cert.Spec.psum sc q' k i' := by
    unfold Cert.Spec.psum; exact Finset.sum_congr rfl fun j _ => hp j
  unfold Cert.Spec.ctxHead Cert.Spec.attw
  exact Finset.sum_congr rfl fun j _ => by rw [hp j, hl]

theorem ctxHead_congr (sc : EReal → EReal) (nrm : EReal → EReal → EReal) (q q' k k' v v' : Fin 2048 → Fin 64 → EReal) (i i' : Fin 2048)
    (d d' : Fin 64) (hq : ∀ dd, q i dd = q' i' dd) (hk : k = k') (hv : v = v') (hd : d = d') :
    ctxHead sc nrm q k v i d = ctxHead sc nrm q' k' v' i' d' := by
  subst hk hv hd; exact ctxHead_congr_row sc nrm q q' k v i i' hq d

theorem laneOf_zero : laneOf 0 = lo := funext fun d => Fin.ext (by show 0 * 64 + d.val = d.val; omega)
theorem laneOf_one : laneOf 1 = hi := funext fun d => Fin.ext (by show 1 * 64 + d.val = 64 + d.val; omega)

/-- The block function on the first head's lanes and on the second head's. -/
theorem attnBlk_lo (x0 : S1x512x128.Idx → EReal) (x1 x2 : S1x2048x128.Idx → EReal) (y : S1x512x128.Idx) (p : Fin 512) (d : Fin 64)
    (h1 : (y 1).val = p.val) (h2 : (y 2).val = d.val) :
    attnBlk x0 x1 x2 y = ctxHead scMul nrmMul (fun _ dd => x0 (ix3 0 p (lo dd))) (fun j dd => x1 (ix3 0 j (lo dd))) (fun j dd => x2 (ix3 0 j (lo dd))) 0 d := by
  have hd := d.isLt
  unfold attnBlk
  have e1 : (⟨(y 1).val, (y 1).isLt⟩ : Fin 512) = p := Fin.ext h1
  have e2 : (⟨(y 2).val / 64, by have : (y 2).val < 128 := (y 2).isLt; omega⟩ : Fin 2) = 0 := Fin.ext (by show (y 2).val / 64 = 0; omega)
  have e3 : (⟨(y 2).val % 64, Nat.mod_lt _ (by norm_num)⟩ : Fin 64) = d := Fin.ext (by show (y 2).val % 64 = d.val; omega)
  rw [e1, e2, e3, laneOf_zero]
theorem attnBlk_hi (x0 : S1x512x128.Idx → EReal) (x1 x2 : S1x2048x128.Idx → EReal) (y : S1x512x128.Idx) (p : Fin 512) (d : Fin 64)
    (h1 : (y 1).val = p.val) (h2 : (y 2).val = 64 + d.val) :
    attnBlk x0 x1 x2 y = ctxHead scMul nrmMul (fun _ dd => x0 (ix3 0 p (hi dd))) (fun j dd => x1 (ix3 0 j (hi dd))) (fun j dd => x2 (ix3 0 j (hi dd))) 0 d := by
  have hd := d.isLt
  unfold attnBlk
  have e1 : (⟨(y 1).val, (y 1).isLt⟩ : Fin 512) = p := Fin.ext h1
  have e2 : (⟨(y 2).val / 64, by have : (y 2).val < 128 := (y 2).isLt; omega⟩ : Fin 2) = 1 := Fin.ext (by show (y 2).val / 64 = 1; omega)
  have e3 : (⟨(y 2).val % 64, Nat.mod_lt _ (by norm_num)⟩ : Fin 64) = d := Fin.ext (by show (y 2).val % 64 = d.val; omega)
  rw [e1, e2, e3, laneOf_one]

/-- The two stores' payloads are the two halves of that function. -/
theorem out1_3_eq (x0 : Vec Ideal S1x512x128 .bf16) (x1 x2 : Vec Ideal S1x2048x128 .bf16) :
    out1_3 (F := Ideal) x0 x1 x2 = attnBlk x0 x1 x2 := by
  unfold out1_3
  simp only [View.ld_unit_zero (S := S1x512x128) hz3, View.ld_unit_zero (S := S1x2048x128) hz3]
  funext y
  refine View.canon_apply_of_pieces (Val := Elt Ideal) (attnBlk x0 x1 x2 : S1x512x128.Idx → Elt Ideal .bf16) _ ?_ y (cover1_3 _ _ y)
  intro pc hpc x
  simp only [List.mem_cons, List.mem_nil_iff, or_false] at hpc
  rcases hpc with rfl | rfl
  · obtain ⟨z, p, d, rfl⟩ : ∃ (z : Fin 1) (p : Fin 512) (d : Fin 64), x = ix3 z p d := ⟨x 0, x 1, x 2, eq_ix3 x⟩
    refine (pay_head_hi_apply x0 x1 x2 z p d).trans (attnBlk_hi x0 x1 x2 _ p d ?_ ?_).symm
    · show 0 + 1 * p.val = p.val; omega
    · show 64 + 1 * d.val = 64 + d.val; omega
  · obtain ⟨z, p, d, rfl⟩ : ∃ (z : Fin 1) (p : Fin 512) (d : Fin 64), x = ix3 z p d := ⟨x 0, x 1, x 2, eq_ix3 x⟩
    refine (pay_head_lo_apply x0 x1 x2 z p d).trans (attnBlk_lo x0 x1 x2 _ p d ?_ ?_).symm
    · show 0 + 1 * p.val = p.val; omega
    · show 0 + 1 * d.val = d.val; omega

/-- The printed index maps over the 128 points (t = (n·8 + hp)·4 + qi): queries and output move with (n, qi, hp),
    keys and values with (n, hp) and span every position. -/
theorem idx_facts1 : ∀ t : Fin cfg1.N,
    win1_0.index t (0 : Fin 3) = t.val / 32 ∧ win1_0.index t (1 : Fin 3) = t.val % 4 ∧ win1_0.index t (2 : Fin 3) = t.val / 4 % 8
    ∧ win1_1.index t (0 : Fin 3) = t.val / 32 ∧ win1_1.index t (1 : Fin 3) = 0 ∧ win1_1.index t (2 : Fin 3) = t.val / 4 % 8
    ∧ win1_2.index t (0 : Fin 3) = t.val / 32 ∧ win1_2.index t (1 : Fin 3) = 0 ∧ win1_2.index t (2 : Fin 3) = t.val / 4 % 8
    ∧ win1_3.index t (0 : Fin 3) = t.val / 32 ∧ win1_3.index t (1 : Fin 3) = t.val % 4 ∧ win1_3.index t (2 : Fin 3) = t.val / 4 % 8
    ∧ t.val < 128 :=
  (by decide +kernel : ∀ t : Fin grid1.N, _)

/-- What point t writes back is block t of attention on the arrays as the launch finds them. -/
theorem flushed1_3_eq (V : (c : Dev nD) → (b : Ref sig .tc) → Buf (Elt Ideal) ((c : Thread nD τ).loc b)) (c : Dev nD) (t : Fin cfg1.N) :
    (dat1 V c).flushed 3 t = ((cfg1.win 3).blk t).view.read (Elt Ideal) (attnArr (V c main_v12) (V c main_v13) (V c main_v14)) := by
  show (cfg1.win 3).cut (grid1.coords t) ((dat1 V c).after 3 t) = _
  rw [after1_3, out1_3_eq (iblk1 V c 0 t) (iblk1 V c 1 t) (iblk1 V c 2 t)]
  obtain ⟨a0, a1, a2, b0, b1, b2, c0, c1, c2, d0, d1, d2, ht⟩ := idx_facts1 t
  funext y
  have hy0 : (y 0).val = 0 := by have : (y 0).val < 1 := (y 0).isLt; omega
  have hy1 : (y 1).val < 512 := (y 1).isLt
  have hy2 : (y 2).val < 128 := (y 2).isLt
  show attnBlk (iblk1 V c 0 t) (iblk1 V c 1 t) (iblk1 V c 2 t) y = attnArr (V c main_v12) (V c main_v13) (V c main_v14) (((cfg1.win 3).blk t).view.emb y)
  unfold attnBlk attnArr
  refine ctxHead_congr scMul nrmMul _ _ _ _ _ _ _ _ _ _ (fun dd => ?_) (funext fun j => funext fun dd => ?_) (funext fun j => funext fun dd => ?_) (Fin.ext ?_)
  · have hdd := dd.isLt
    show V c main_v12 (((cfg1.win 0).blk t).view.emb _) = _
    refine congrArg (V c main_v12) (funext fun a => Fin.ext ?_)
    match a with
    | ⟨0, _⟩ => show win1_0.index t (0 : Fin 3) * 1 + 1 * 0 = win1_3.index t (0 : Fin 3) * 1 + 1 * (y 0).val; omega
    | ⟨1, _⟩ => show win1_0.index t (1 : Fin 3) * 512 + 1 * (y 1).val = win1_3.index t (1 : Fin 3) * 512 + 1 * (y 1).val; omega
    | ⟨2, _⟩ => show win1_0.index t (2 : Fin 3) * 128 + 1 * ((y 2).val / 64 * 64 + dd.val) = (win1_3.index t (2 : Fin 3) * 128 + 1 * (y 2).val) / 64 * 64 + dd.val; omega
  · have hdd := dd.isLt
    show V c main_v13 (((cfg1.win 1).blk t).view.emb _) = _
    refine congrArg (V c main_v13) (funext fun a => Fin.ext ?_)
    match a with
    | ⟨0, _⟩ => show win1_1.index t (0 : Fin 3) * 1 + 1 * 0 = win1_3.index t (0 : Fin 3) * 1 + 1 * (y 0).val; omega
    | ⟨1, _⟩ => show win1_1.index t (1 : Fin 3) * 2048 + 1 * j.val = j.val; omega
    | ⟨2, _⟩ => show win1_1.index t (2 : Fin 3) * 128 + 1 * ((y 2).val / 64 * 64 + dd.val) = (win1_3.index t (2 : Fin 3) * 128 + 1 * (y 2).val) / 64 * 64 + dd.val; omega
  · have hdd := dd.isLt
    show V c main_v14 (((cfg1.win 2).blk t).view.emb _) = _
    refine congrArg (V c main_v14) (funext fun a => Fin.ext ?_)
    match a with
    | ⟨0, _⟩ => show win1_2.index t (0 : Fin 3) * 1 + 1 * 0 = win1_3.index t (0 : Fin 3) * 1 + 1 * (y 0).val; omega
    | ⟨1, _⟩ => show win1_2.index t (1 : Fin 3) * 2048 + 1 * j.val = j.val; omega
    | ⟨2, _⟩ => show win1_2.index t (2 : Fin 3) * 128 + 1 * ((y 2).val / 64 * 64 + dd.val) = (win1_3.index t (2 : Fin 3) * 128 + 1 * (y 2).val) / 64 * 64 + dd.val; omega
  · show (y 2).val % 64 = (win1_3.index t (2 : Fin 3) * 128 + 1 * (y 2).val) % 64; omega

/-- An index of the array is in point t's block iff each coordinate is in the block's range on its axis. -/
theorem mem_blk1_3 (t : Fin cfg1.N) (i : S4x2048x1024.Idx) :
    i ∈ ((cfg1.win 3).blk t).view.set ↔ ∀ a : Fin 3, win1_3.index t a * S1x512x128.size a ≤ (i a).val ∧ (i a).val < win1_3.index t a * S1x512x128.size a + S1x512x128.size a := by
  show i ∈ ((View.whole main_v15).slice (win1_3.rect t)).set ↔ _
  rw [View.set_slice_whole, Rect.mem_set_unit]
  exact Iff.rfl

/-- The attention output after the launch: entry (n, s, e) lies in the block of point (n·8 + e / 128)·4 + s / 512. -/
theorem final1_3 (V : (c : Dev nD) → (b : Ref sig .tc) → Buf (Elt Ideal) ((c : Thread nD τ).loc b)) (c : Dev nD) :
    (dat1 V c).arrAt 3 cfg1.N = attnArr (V c main_v12) (V c main_v13) (V c main_v14) :=
  (dat1 V c).arrAt_eq_of_cover 3 _ (fun t _ => flushed1_3_eq V c t) (fun i => by
    have hi0 : (i 0).val < 4 := (i 0).isLt
    have hi1 : (i 1).val < 2048 := (i 1).isLt
    have hi2 : (i 2).val < 1024 := (i 2).isLt
    have hN : grid1.N = 128 := N_1
    have ht : ((i 0).val * 8 + (i 2).val / 128) * 4 + (i 1).val / 512 < cfg1.N := by show _ < grid1.N; omega
    refine ⟨⟨((i 0).val * 8 + (i 2).val / 128) * 4 + (i 1).val / 512, ht⟩, flush1_3 _, ?_⟩
    rw [mem_blk1_3]
    obtain ⟨-, -, -, -, -, -, -, -, -, d0, d1, d2, -⟩ := idx_facts1 ⟨((i 0).val * 8 + (i 2).val / 128) * 4 + (i 1).val / 512, ht⟩
    intro a
    match a with
    | ⟨0, _⟩ =>
      show win1_3.index ⟨((i 0).val * 8 + (i 2).val / 128) * 4 + (i 1).val / 512, ht⟩ (0 : Fin 3) * 1 ≤ (i 0).val ∧ (i 0).val < win1_3.index ⟨((i 0).val * 8 + (i 2).val / 128) * 4 + (i 1).val / 512, ht⟩ (0 : Fin 3) * 1 + 1
      rw [d0]; show (((i 0).val * 8 + (i 2).val / 128) * 4 + (i 1).val / 512) / 32 * 1 ≤ (i 0).val ∧ (i 0).val < (((i 0).val * 8 + (i 2).val / 128) * 4 + (i 1).val / 512) / 32 * 1 + 1; omega
    | ⟨1, _⟩ =>
      show win1_3.index ⟨((i 0).val * 8 + (i 2).val / 128) * 4 + (i 1).val / 512, ht⟩ (1 : Fin 3) * 512 ≤ (i 1).val ∧ (i 1).val < win1_3.index ⟨((i 0).val * 8 + (i 2).val / 128) * 4 + (i 1).val / 512, ht⟩ (1 : Fin 3) * 512 + 512
      rw [d1]; show (((i 0).val * 8 + (i 2).val / 128) * 4 + (i 1).val / 512) % 4 * 512 ≤ (i 1).val ∧ (i 1).val < (((i 0).val * 8 + (i 2).val / 128) * 4 + (i 1).val / 512) % 4 * 512 + 512; omega
    | ⟨2, _⟩ =>
      show win1_3.index ⟨((i 0).val * 8 + (i 2).val / 128) * 4 + (i 1).val / 512, ht⟩ (2 : Fin 3) * 128 ≤ (i 2).val ∧ (i 2).val < win1_3.index ⟨((i 0).val * 8 + (i 2).val / 128) * 4 + (i 1).val / 512, ht⟩ (2 : Fin 3) * 128 + 128
      rw [d2]; show (((i 0).val * 8 + (i 2).val / 128) * 4 + (i 1).val / 512) / 4 % 8 * 128 ≤ (i 2).val ∧ (i 2).val < (((i 0).val * 8 + (i 2).val / 128) * 4 + (i 1).val / 512) / 4 % 8 * 128 + 128; omega)

end Cert.KernelValue

end
-- ==== Proof.KPay2.lean ====
/-
  The layer-normalisation kernel's arithmetic read at an index.

  The body computes, for a block of 512 rows, the residual row r = x + (c · Woᵀ + bo), its mean and variance
  along the 1024 model coordinates (sums along the last axis, kept as a column and repeated along the row),
  and (r − μ) · (1 / √(var + ε)) · γ + β. Read at the entry (p, q) this is the specification's row
  normalisation of row p, spelled with the reciprocal.
-/
import proofs.«116996_j188978561294_2_alg».proof.Proof.Gen.KernelIdeal.Skeleton
import proofs.«116996_j188978561294_2_alg».proof.Proof.KDots
import proofs.«116996_j188978561294_2_alg».proof.Proof.LibColumn
import proofs.«116996_j188978561294_2_alg».proof.Proof.Spec
import Idealize.ShloMosaic.Lib.Pipeline.Value
import Idealize.ShloMosaic.Lib.ValueLayout
import Idealize.ShloMosaic.PureOps.Ideal.Laws

noncomputable section

namespace Cert.KernelValue

open Cert.KernelIdeal Cert.KernelIdeal.Gen Idealize.ShloMosaic Idealize.ShloMosaic.ValueIdx

/-- The index of a [512, 1024] matrix over row `p` with coordinate `k` inserted on the last axis is `(p, k)`. -/
theorem lift1024 (p : Fin 512) (k : Fin (S512x1024.size 1)) :
    reduces_S512x1024_S512.lift (ix1 p) k = ix2 p (k : Fin 1024) := by
  funext c
  apply Fin.ext
  refine (Shape.Reduces.lift_val reduces_S512x1024_S512 (ix1 p) k c).trans ?_
  unfold Shape.Reduces.liftVal
  match c with
  | ⟨0, _⟩ => rfl
  | ⟨1, _⟩ => rfl

/-- A sum along the last axis of a [512, 1024] matrix, read at row `p`, is the sum of that row's entries. -/
theorem rowsum1024 (w : FVec Ideal S512x1024 .f32) (hφ : FTy.f32 = FTy.f32 ∨ FTy.f32 = FTy.bf16)
    (hacc : (0x00000000#32 : BitVec 32) = 0x00000000#32) (p : Fin 512) :
    multiReduction (F := Ideal) .add [1] S512 w 0x00000000#32 reduces_S512x1024_S512 hφ hacc (ix1 p)
      = ∑ k : Fin 1024, w (ix2 p k) := by
  refine (Ideal.multiReduction_add_single w 0x00000000#32 reduces_S512x1024_S512 hφ hacc (ix1 p)).trans ?_
  exact Finset.sum_congr rfl fun k _ => congrArg w (lift1024 p k)

/-- An elementwise square root at an index is the square root of the entry. -/
theorem sqrt_apply {s : Shape} {φ : FTy} (a : FVec Ideal s φ) (i : s.Idx) :
    Idealize.ShloMosaic.sqrt a i = Ideal.sqrt (a i) := rfl

theorem pay_ln_apply (v0 : Vec Ideal S512x1024 .bf16) (v2 : Vec Ideal S1024x1024 .bf16) (v5 : Vec Ideal S1x1024 .f32)
    (v9 : Vec Ideal S512x1024 .f32) (v32 v36 : Vec Ideal S1x1024 .f32) (p : Fin 512) (q : Fin 1024) :
    k2_pay1 (F := Ideal) v0 v2 v5 v9 v32 v36 (ix2 p q)
      = Cert.Spec.lnRow Cert.Spec.nrmMul
          (fun e => v9 (ix2 p e) + ((∑ d : Fin 1024, v0 (ix2 p d) * v2 (ix2 e d)) + v5 (ix2 0 e)))
          (fun e => v32 (ix2 0 e)) (fun e => v36 (ix2 0 e)) q := by
  unfold k2_pay1
  dsimp only
  simp only [shapeCast_self, addf_apply, mulf_apply, subf_apply, divf_apply, sqrt_apply, broadcast_apply,
    Cert.Column.shapeCast_a_a1_apply, Cert.Column.broadcastTo_a1_ab_apply, broadcastTo_1b_ab_apply, matmul_proj_apply]
  rw [rowsum1024, rowsum1024]
  simp only [addf_apply, mulf_apply, subf_apply, divf_apply, broadcast_apply,
    Cert.Column.shapeCast_a_a1_apply, Cert.Column.broadcastTo_a1_ab_apply, broadcastTo_1b_ab_apply, matmul_proj_apply]
  rw [rowsum1024]
  simp only [addf_apply, broadcastTo_1b_ab_apply, matmul_proj_apply]
  unfold Cert.Spec.lnRow Cert.Spec.nrmMul Cert.Spec.rowVar Cert.Spec.rowMean
  rfl

end Cert.KernelValue

end
-- ==== Proof.KReg2.lean ====
/-
  The third launch: output projection, residual and layer normalisation of the [8192, 1024] array of rows, sixteen
  blocks of 512 rows each. A block's payload at (p, q) is the row normalisation of the residual row
  x + (c · Woᵀ + bo) of the block's row p, at coordinate q; block t of the output is rows 512·t … 512·t + 511 of
  the whole-array function, and the sixteen blocks cover the array.
-/
import proofs.«116996_j188978561294_2_alg».proof.Proof.Gen.KernelIdeal.Frame
import proofs.«116996_j188978561294_2_alg».proof.Proof.KDots
import proofs.«116996_j188978561294_2_alg».proof.Proof.KReg0
import proofs.«116996_j188978561294_2_alg».proof.Proof.Spec
import proofs.«116996_j188978561294_2_alg».proof.Proof.KDefs
import proofs.«116996_j188978561294_2_alg».proof.Proof.KPay2
import Idealize.ShloMosaic.Lib.Pipeline.Value
import Idealize.ShloMosaic.Lib.ValueLayout

set_option maxRecDepth 16384

noncomputable section

namespace Cert.KernelValue

open Cert.KernelIdeal Cert.KernelIdeal.Gen Idealize.ShloMosaic Idealize.ShloMosaic.ValueIdx Idealize.ShloMosaic.TcCoe Idealize.SL.Sem
open Idealize.ShloMosaic.Pipeline (Dat)

/-- A row normalisation depends on its row, scale and shift only through their values. -/
theorem lnRow_congr {nrm : EReal → EReal → EReal} {r r' g g' β β' : Fin 1024 → EReal} {q q' : Fin 1024}
    (hr : ∀ e, r e = r' e) (hg : ∀ e, g e = g' e) (hb : ∀ e, β e = β' e) (hq : q = q') :
    Cert.Spec.lnRow nrm r g β q = Cert.Spec.lnRow nrm r' g' β' q' := by
  rw [funext hr, funext hg, funext hb, hq]

/-- The index maps over the sixteen points: the two row blocks and the output block move with the point, the
    weight and the four vectors stay. -/
theorem idx_facts2_6 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 ∧ t.val < 16 :=
  (by decide +kernel : ∀ t : Fin grid2.N, _)

/-- What point t writes back to output 6 is block t of the whole-array function of the arrays as the launch finds them. -/
theorem flushed2_6_eq (V : (c : Dev nD) → (b : Ref sig .tc) → Buf (Elt Ideal) ((c : Thread nD τ).loc b)) (c : Dev nD) (t : Fin cfg2.N) :
    (dat2 V c).flushed 6 t = ((cfg2.win 6).blk t).view.read (Elt Ideal)
      (lnArr (V c main_v16) (V c main_v4) (V c main_v8) (V c main_v0) (V c main_v9) (V c main_v10)) := by
  show (cfg2.win 6).cut (grid2.coords t) ((dat2 V c).after 6 t) = _
  rw [after2_6]
  unfold out2_6
  rw [View.canon_unit_zero hz2]
  simp only [View.ld_unit_zero (S := S512x1024) hz2, View.ld_unit_zero (S := S1024x1024) hz2, View.ld_unit_zero (S := S1x1024) hz2]
  obtain ⟨a0, a1, b0, b1, c0, c1, d0, d1, g0, g1, s0, s1, o0, o1, ht⟩ := idx_facts2_6 t
  funext j
  obtain ⟨p, q, rfl⟩ : ∃ (p : Fin 512) (q : Fin 1024), j = ix2 p q := ⟨j 0, j 1, eq_ix2 j⟩
  show k2_pay1 (F := Ideal) (iblk2 V c 0 t) (iblk2 V c 1 t) (iblk2 V c 2 t) (iblk2 V c 3 t) (iblk2 V c 4 t) (iblk2 V c 5 t) (ix2 p q)
    = lnArr (V c main_v16) (V c main_v4) (V c main_v8) (V c main_v0) (V c main_v9) (V c main_v10) (((cfg2.win 6).blk t).view.emb (ix2 p q))
  refine (pay_ln_apply (iblk2 V c 0 t) (iblk2 V c 1 t) (iblk2 V c 2 t) (iblk2 V c 3 t) (iblk2 V c 4 t) (iblk2 V c 5 t) p q).trans ?_
  unfold lnArr
  -- the context rows and the input rows: row p of block t is row 512·t + p of the array
  have h0 : ∀ d : Fin 1024, iblk2 V c 0 t (ix2 p d) = V c main_v16 (ix2 (⟨((((cfg2.win 6).blk t).view.emb (ix2 p q)) 0).val, idx2_lt0 _⟩ : Fin 8192) d) := fun d => by
    show V c main_v16 (((cfg2.win 0).blk t).view.emb (ix2 p d)) = _
    refine congrArg (V c main_v16) (funext fun a => Fin.ext ?_)
    match a with
    | ⟨0, _⟩ => show win2_0.index t (0 : Fin 2) * 512 + 1 * p.val = win2_6.index t (0 : Fin 2) * 512 + 1 * p.val; omega
    | ⟨1, _⟩ => show win2_0.index t (1 : Fin 2) * 1024 + 1 * d.val = d.val; omega
  have h3 : ∀ e : Fin 1024, iblk2 V c 3 t (ix2 p e) = V c main_v0 (ix2 (⟨((((cfg2.win 6).blk t).view.emb (ix2 p q)) 0).val, idx2_lt0 _⟩ : Fin 8192) e) := fun e => by
    show V c main_v0 (((cfg2.win 3).blk t).view.emb (ix2 p e)) = _
    refine congrArg (V c main_v0) (funext fun a => Fin.ext ?_)
    match a with
    | ⟨0, _⟩ => show win2_3.index t (0 : Fin 2) * 512 + 1 * p.val = win2_6.index t (0 : Fin 2) * 512 + 1 * p.val; omega
    | ⟨1, _⟩ => show win2_3.index t (1 : Fin 2) * 1024 + 1 * e.val = e.val; omega
  -- the weight and the four vectors: one block, the whole array
  have h1 : ∀ e d : Fin 1024, iblk2 V c 1 t (ix2 e d) = V c main_v4 (ix2 e d) := fun e d => by
    show V c main_v4 (((cfg2.win 1).blk t).view.emb (ix2 e d)) = _
    refine congrArg (V c main_v4) (funext fun a => Fin.ext ?_)
    match a with
    | ⟨0, _⟩ => show win2_1.index t (0 : Fin 2) * 1024 + 1 * e.val = e.val; omega
    | ⟨1, _⟩ => show win2_1.index t (1 : Fin 2) * 1024 + 1 * d.val = d.val; omega
  have h2 : ∀ e : Fin 1024, iblk2 V c 2 t (ix2 0 e) = V c main_v8 (ix2 0 e) := fun e => by
    show V c main_v8 (((cfg2.win 2).blk t).view.emb (ix2 0 e)) = _
    refine congrArg (V c main_v8) (funext fun a => Fin.ext ?_)
    match a with
    | ⟨0, _⟩ => show win2_2.index t (0 : Fin 2) * 1 + 1 * 0 = 0; omega
    | ⟨1, _⟩ => show win2_2.index t (1 : Fin 2) * 1024 + 1 * e.val = e.val; omega
  have h4 : ∀ e : Fin 1024, iblk2 V c 4 t (ix2 0 e) = V c main_v9 (ix2 0 e) := fun e => by
    show V c main_v9 (((cfg2.win 4).blk t).view.emb (ix2 0 e)) = _
    refine congrArg (V c main_v9) (funext fun a => Fin.ext ?_)
    match a with
    | ⟨0, _⟩ => show win2_4.index t (0 : Fin 2) * 1 + 1 * 0 = 0; omega
    | ⟨1, _⟩ => show win2_4.index t (1 : Fin 2) * 1024 + 1 * e.val = e.val; omega
  have h5 : ∀ e : Fin 1024, iblk2 V c 5 t (ix2 0 e) = V c main_v10 (ix2 0 e) := fun e => by
    show V c main_v10 (((cfg2.win 5).blk t).view.emb (ix2 0 e)) = _
    refine congrArg (V c main_v10) (funext fun a => Fin.ext ?_)
    match a with
    | ⟨0, _⟩ => show win2_5.index t (0 : Fin 2) * 1 + 1 * 0 = 0; omega
    | ⟨1, _⟩ => show win2_5.index t (1 : Fin 2) * 1024 + 1 * e.val = e.val; omega
  -- the column: the block spans all 1024 columns
  have hq : q = (⟨((((cfg2.win 6).blk t).view.emb (ix2 p q)) 1).val, idx2_lt1 _⟩ : Fin 1024) := Fin.ext (by
    show q.val = win2_6.index t (1 : Fin 2) * 1024 + 1 * q.val; omega)
  refine lnRow_congr (fun e => ?_) h4 h5 hq
  beta_reduce
  simp only [h3 e, h2 e, h0, h1]

/-- An index of the array is in point t's block iff each coordinate is in the block's range on its axis. -/
theorem mem_blk2_6 (t : Fin cfg2.N) (i : S8192x1024.Idx) :
    i ∈ ((cfg2.win 6).blk t).view.set ↔ ∀ a : Fin 2, win2_6.index t a * S512x1024.size a ≤ (i a).val ∧ (i a).val < win2_6.index t a * S512x1024.size a + S512x1024.size a := by
  show i ∈ ((View.whole main_v17).slice (win2_6.rect t)).set ↔ _
  rw [View.set_slice_whole, Rect.mem_set_unit]
  exact Iff.rfl

/-- Output 6 after the launch: the whole-array function of the arrays as the launch finds them; row r lies in block r / 512. -/
theorem final2_6 (V : (c : Dev nD) → (b : Ref sig .tc) → Buf (Elt Ideal) ((c : Thread nD τ).loc b)) (c : Dev nD) :
    (dat2 V c).arrAt 6 cfg2.N = lnArr (V c main_v16) (V c main_v4) (V c main_v8) (V c main_v0) (V c main_v9) (V c main_v10) :=
  (dat2 V c).arrAt_eq_of_cover 6 _ (fun t _ => flushed2_6_eq V c t) (fun i => by
    have hi0 : (i 0).val < 8192 := idx2_lt0 i
    have hi1 : (i 1).val < 1024 := idx2_lt1 i
    have hN : grid2.N = 16 := N_2
    have ht : (i 0).val / 512 < cfg2.N := by show _ < grid2.N; omega
    refine ⟨⟨(i 0).val / 512, ht⟩, flush2_6 _, ?_⟩
    rw [mem_blk2_6]
    obtain ⟨-, -, -, -, -, -, -, -, -, -, -, -, o0, o1, -⟩ := idx_facts2_6 ⟨(i 0).val / 512, ht⟩
    intro a
    match a with
    | ⟨0, _⟩ =>
      show win2_6.index ⟨(i 0).val / 512, ht⟩ (0 : Fin 2) * 512 ≤ (i 0).val ∧ (i 0).val < win2_6.index ⟨(i 0).val / 512, ht⟩ (0 : Fin 2) * 512 + 512
      rw [o0]; show (i 0).val / 512 * 512 ≤ (i 0).val ∧ (i 0).val < (i 0).val / 512 * 512 + 512; omega
    | ⟨1, _⟩ =>
      show win2_6.index ⟨(i 0).val / 512, ht⟩ (1 : Fin 2) * 1024 ≤ (i 1).val ∧ (i 1).val < win2_6.index ⟨(i 0).val / 512, ht⟩ (1 : Fin 2) * 1024 + 1024
      rw [o1]; omega)

end Cert.KernelValue

end
-- ==== Proof.KValue.lean ====
/-
  The kernel program's result, as a function of the argument arrays: the specification in the kernel's spelling.
-/
import proofs.«116996_j188978561294_2_alg».proof.Proof.KRun
import proofs.«116996_j188978561294_2_alg».proof.Proof.KCompose
import proofs.«116996_j188978561294_2_alg».proof.Proof.KReg1
import proofs.«116996_j188978561294_2_alg».proof.Proof.KReg2
import proofs.«116996_j188978561294_2_alg».proof.Proof.Spec

noncomputable section

namespace Cert.KernelValue

open Cert.KernelIdeal Cert.KernelIdeal.Gen Idealize.ShloMosaic Idealize.ShloMosaic.TcCoe Idealize.SL.Sem

theorem kernel_value (m : (ℓ : Loc nD τ sig) → Buf (Elt Ideal) ℓ) (ρ : Dev nD → PrngReg) (c : Dev nD) :
    W7 m ρ c (Proc.devRef .tc main_v18)
      = Cert.Spec.out Cert.Spec.scMul Cert.Spec.nrmMul (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) :=
  kernel_value_of final1_3 final2_6 m ρ c

end Cert.KernelValue

end
-- ==== Proof.RefValue1.lean ====
/-
  The reference program read at plain coordinates, first part: the three linear layers.

  Each of Q, K, V is x · Wᵀ + b on [4, 2048, 1024], then viewed as [4, 2048, 16, 64] and transposed to
  [4, 16, 2048, 64]. Element (n, h, s, d) of the result is element (n, s, h·64 + d) of the linear layer:
  the row-major position ((n·2048 + s)·16 + h)·64 + d of the four-axis view is position
  (n·2048 + s)·1024 + (h·64 + d) of the three-axis array.
-/
import proofs.«116996_j188978561294_2_alg».proof.Proof.Spec
import proofs.«116996_j188978561294_2_alg».proof.Proof.Gen.ReferenceIdeal.Read

noncomputable section

namespace Cert.RefValue

open Cert.ReferenceIdeal Cert.ReferenceIdeal.Read Cert.Spec Idealize.ShloMosaic Idealize.ShloMosaic.ValueIdx

/-- The reshape [4,2048,1024] → [4,2048,16,64] followed by the transpose to [4,16,2048,64], on indices. -/
theorem headIdx_q (n : Fin 4) (h : Fin 16) (s : Fin 2048) (d : Fin 64) :
    idx_main_v4 (idx_main_v5 (ix4 n h s d)) = ix3 n s (col h d) :=
  funext fun a => Fin.ext (by
    have hn := n.isLt; have hh := h.isLt; have hs := s.isLt; have hd := d.isLt
    match a with
    | ⟨0, _⟩ => show (((n.val * 2048 + s.val) * 16 + h.val) * 64 + d.val) / 2097152 = n.val; omega
    | ⟨1, _⟩ => show (((n.val * 2048 + s.val) * 16 + h.val) * 64 + d.val) / 1024 % 2048 = s.val; omega
    | ⟨2, _⟩ => show (((n.val * 2048 + s.val) * 16 + h.val) * 64 + d.val) % 1024 = h.val * 64 + d.val; omega)

theorem headIdx_k (n : Fin 4) (h : Fin 16) (s : Fin 2048) (d : Fin 64) :
    idx_main_v10 (idx_main_v11 (ix4 n h s d)) = ix3 n s (col h d) := headIdx_q n h s d

theorem headIdx_v (n : Fin 4) (h : Fin 16) (s : Fin 2048) (d : Fin 64) :
    idx_main_v16 (idx_main_v17 (ix4 n h s d)) = ix3 n s (col h d) := headIdx_q n h s d

/-- The operand indices of the contraction over the 1024 model coordinates. -/
theorem lin_lidx (n : Fin 4) (s : Fin 2048) (e k : Fin 1024) : lidx_main_v0 (ix3 n s e) k = ix3 n s k :=
  funext fun a => Fin.ext (by match a with | ⟨0, _⟩ => rfl | ⟨1, _⟩ => rfl | ⟨2, _⟩ => rfl)
theorem lin_ridx (n : Fin 4) (s : Fin 2048) (e k : Fin 1024) : ridx_main_v0 (ix3 n s e) k = ix2 e k :=
  funext fun a => Fin.ext (by match a with | ⟨0, _⟩ => rfl | ⟨1, _⟩ => rfl)
/-- The bias, broadcast [1024] → [1,1,1024] → [4,2048,1024], on indices. -/
theorem lin_bidx (n : Fin 4) (s : Fin 2048) (e : Fin 1024) : idx_main_v1 (idx_main_v2 (ix3 n s e)) = ix1 e :=
  funext fun a => Fin.ext (by match a with | ⟨0, _⟩ => rfl)

/-- The linear layer for Q at (n, s, e). -/
theorem lin_q (x0 : A3) (x1 : A2) (x2 : A1) (n : Fin 4) (s : Fin 2048) (e : Fin 1024) :
    val_main_v3 (F := Ideal) x0 x1 x2 (ix3 n s e) = proj x0 x1 x2 n s e := by
  rw [val_main_v3_apply, val_main_v0_apply, val_main_v2_apply, val_main_v1_apply, lin_bidx]
  simp only [lin_lidx, lin_ridx, Ideal.addf_def]
  rfl

theorem lin_k (x0 : A3) (x3 : A2) (x4 : A1) (n : Fin 4) (s : Fin 2048) (e : Fin 1024) :
    val_main_v9 (F := Ideal) x0 x3 x4 (ix3 n s e) = proj x0 x3 x4 n s e := lin_q x0 x3 x4 n s e

theorem lin_v (x0 : A3) (x5 : A2) (x6 : A1) (n : Fin 4) (s : Fin 2048) (e : Fin 1024) :
    val_main_v15 (F := Ideal) x0 x5 x6 (ix3 n s e) = proj x0 x5 x6 n s e := lin_q x0 x5 x6 n s e

/-- Q, K, V at batch n, head h, position s, in-head coordinate d. -/
theorem head_q (x0 : A3) (x1 : A2) (x2 : A1) (n : Fin 4) (h : Fin 16) (s : Fin 2048) (d : Fin 64) :
    val_main_v5 (F := Ideal) x0 x1 x2 (ix4 n h s d) = proj x0 x1 x2 n s (col h d) := by
  rw [val_main_v5_apply, val_main_v4_apply, headIdx_q, lin_q]

theorem head_k (x0 : A3) (x3 : A2) (x4 : A1) (n : Fin 4) (h : Fin 16) (s : Fin 2048) (d : Fin 64) :
    val_main_v11 (F := Ideal) x0 x3 x4 (ix4 n h s d) = proj x0 x3 x4 n s (col h d) := by
  rw [val_main_v11_apply, val_main_v10_apply, headIdx_k, lin_k]

theorem head_v (x0 : A3) (x5 : A2) (x6 : A1) (n : Fin 4) (h : Fin 16) (s : Fin 2048) (d : Fin 64) :
    val_main_v17 (F := Ideal) x0 x5 x6 (ix4 n h s d) = proj x0 x5 x6 n s (col h d) := by
  rw [val_main_v17_apply, val_main_v16_apply, headIdx_v, lin_v]

end Cert.RefValue

end
-- ==== Proof.RefValue2.lean ====
/-
  The reference program read at plain coordinates, second part: one head's scores and softmax weights.

  For batch n and head h, with q, k the head's rows of Q and K:
    scores  (n, h, i, j) = (∑ d, q i d · k j d) / 8
    maximum (n, h, i)    = max (−∞) (the fold of max from −∞ over row i) = that fold: it is already ≥ −∞
    weights (n, h, i, j) = exp (score − maximum) / ∑ j, exp (score − maximum)   (the sum starts from the zero word)
-/
import proofs.«116996_j188978561294_2_alg».proof.Proof.Spec
import proofs.«116996_j188978561294_2_alg».proof.Proof.Gen.ReferenceIdeal.Read
import proofs.«116996_j188978561294_2_alg».proof.Proof.RefValue1

noncomputable section

namespace Cert.RefValue

open Cert.ReferenceIdeal Cert.ReferenceIdeal.Read Cert.Spec Idealize.ShloMosaic Idealize.ShloMosaic.ValueIdx

/-- One head's rows of a linear layer: position s, in-head coordinate d. -/
abbrev headRows (x : A3) (W : A2) (b : A1) (n : Fin 4) (h : Fin 16) : Fin 2048 → Fin 64 → EReal :=
  fun s d => proj x W b n s (col h d)

theorem sc_lidx (n : Fin 4) (h : Fin 16) (i j : Fin 2048) (k : Fin 64) : lidx_main_v18 (ix4 n h i j) k = ix4 n h i k :=
  funext fun a => Fin.ext (by match a with | ⟨0, _⟩ => rfl | ⟨1, _⟩ => rfl | ⟨2, _⟩ => rfl | ⟨3, _⟩ => rfl)
theorem sc_ridx (n : Fin 4) (h : Fin 16) (i j : Fin 2048) (k : Fin 64) : ridx_main_v18 (ix4 n h i j) k = ix4 n h j k :=
  funext fun a => Fin.ext (by match a with | ⟨0, _⟩ => rfl | ⟨1, _⟩ => rfl | ⟨2, _⟩ => rfl | ⟨3, _⟩ => rfl)

/-- The scaled score of query i against key j. -/
theorem score_eq (x0 : A3) (x1 : A2) (x2 : A1) (x3 : A2) (x4 : A1) (n : Fin 4) (h : Fin 16) (i j : Fin 2048) :
    val_main_v20 (F := Ideal) x0 x1 x2 x3 x4 (ix4 n h i j) = score scDiv (headRows x0 x1 x2 n h) (headRows x0 x3 x4 n h) i j := by
  rw [val_main_v20_apply, val_main_v18_apply, val_main_v19_apply, val_main_cst_apply]
  simp only [sc_lidx, sc_ridx, head_q, head_k, Ideal.hostDivf_def, Ideal.ofBits_def]
  rfl

/-- The row maximum: the reduction is the fold of max from −∞ over the row, and max (−∞) of it changes nothing. -/
theorem rowMax_eq (x0 : A3) (x1 : A2) (x2 : A1) (x3 : A2) (x4 : A1) (n : Fin 4) (h : Fin 16) (i : Fin 2048) :
    val_main_v23 (F := Ideal) x0 x1 x2 x3 x4 (ix3 n h i) = rowMax scDiv (headRows x0 x1 x2 n h) (headRows x0 x3 x4 n h) i := by
  have hred : S4x16x2048x2048.Reduces [3] S4x16x2048 := by decide
  have h21 : val_main_v21 (F := Ideal) x0 x1 x2 x3 x4 (ix3 n h i) = rowMax scDiv (headRows x0 x1 x2 n h) (headRows x0 x3 x4 n h) i := by
    unfold val_main_v21
    rw [Host.reduce_eq_fold_single _ _ _ _ hred]
    unfold rowMax
    refine Finset.fold_congr (fun (k : Fin 2048) _ => ?_)
    have hl : hred.lift (ix3 n h i) k = ix4 n h i k := funext fun a => Fin.ext (by match a with | ⟨0, _⟩ => rfl | ⟨1, _⟩ => rfl | ⟨2, _⟩ => rfl | ⟨3, _⟩ => rfl)
    exact (congrArg (val_main_v20 (F := Ideal) x0 x1 x2 x3 x4) hl).trans (score_eq x0 x1 x2 x3 x4 n h i k)
  rw [val_main_v23_apply, val_main_v22_apply, val_main_cst_1_apply, h21]
  unfold rowMax
  exact max_eq_right ((Finset.le_fold_max _).mpr (Or.inl le_rfl))

theorem bc_rowIdx (n : Fin 4) (h : Fin 16) (i j : Fin 2048) : idx_main_v24 (idx_main_v25 (ix4 n h i j)) = ix3 n h i :=
  funext fun a => Fin.ext (by match a with | ⟨0, _⟩ => rfl | ⟨1, _⟩ => rfl | ⟨2, _⟩ => rfl)

/-- The unnormalised softmax weight. -/
theorem pexp_eq (x0 : A3) (x1 : A2) (x2 : A1) (x3 : A2) (x4 : A1) (n : Fin 4) (h : Fin 16) (i j : Fin 2048) :
    val_main_v27 (F := Ideal) x0 x1 x2 x3 x4 (ix4 n h i j) = pexp scDiv (headRows x0 x1 x2 n h) (headRows x0 x3 x4 n h) i j := by
  rw [val_main_v27_apply, val_main_v26_apply, val_main_v25_apply, val_main_v24_apply, bc_rowIdx, rowMax_eq, score_eq]
  rfl

theorem sum_rowIdx (n : Fin 4) (h : Fin 16) (i k : Fin 2048) : idx_main_v28 (ix3 n h i) k = ix4 n h i k :=
  funext fun a => Fin.ext (by match a with | ⟨0, _⟩ => rfl | ⟨1, _⟩ => rfl | ⟨2, _⟩ => rfl | ⟨3, _⟩ => rfl)

/-- The row's normaliser: the float sum starts from the zero word. -/
theorem psum_eq (x0 : A3) (x1 : A2) (x2 : A1) (x3 : A2) (x4 : A1) (n : Fin 4) (h : Fin 16) (i : Fin 2048) :
    val_main_v28 (F := Ideal) x0 x1 x2 x3 x4 (ix3 n h i) = psum scDiv (headRows x0 x1 x2 n h) (headRows x0 x3 x4 n h) i := by
  rw [val_main_v28_apply, val_main_cst_2_apply]
  simp only [sum_rowIdx, pexp_eq, Ideal.ofBits_def, Ideal.ofBits_zero_f32, zero_add]
  rfl

theorem bc_sumIdx (n : Fin 4) (h : Fin 16) (i j : Fin 2048) : idx_main_v29 (idx_main_v30 (ix4 n h i j)) = ix3 n h i :=
  funext fun a => Fin.ext (by match a with | ⟨0, _⟩ => rfl | ⟨1, _⟩ => rfl | ⟨2, _⟩ => rfl)

/-- The softmax weight, spelled as the quotient p / l. -/
theorem attw_eq (x0 : A3) (x1 : A2) (x2 : A1) (x3 : A2) (x4 : A1) (n : Fin 4) (h : Fin 16) (i j : Fin 2048) :
    val_main_v31 (F := Ideal) x0 x1 x2 x3 x4 (ix4 n h i j) = attw scDiv nrmDiv (headRows x0 x1 x2 n h) (headRows x0 x3 x4 n h) i j := by
  rw [val_main_v31_apply, val_main_v30_apply, val_main_v29_apply, bc_sumIdx, psum_eq, pexp_eq]
  rfl

end Cert.RefValue

end
-- ==== Proof.RefValue3.lean ====
/-
  The reference program read at plain coordinates, third part: the attention context, the output projection
  and the residual.

  The context of head h is ∑ j, weight i j · v j d on [4, 16, 2048, 64]; transposed back to [4, 2048, 16, 64] and
  viewed as [4, 2048, 1024], element (n, s, e) comes from head e / 64, in-head coordinate e % 64: the row-major
  position (n·2048 + s)·1024 + e of the three-axis array is position ((n·2048 + s)·16 + e / 64)·64 + e % 64 of the
  four-axis one.
-/
import proofs.«116996_j188978561294_2_alg».proof.Proof.Spec
import proofs.«116996_j188978561294_2_alg».proof.Proof.Gen.ReferenceIdeal.Read
import proofs.«116996_j188978561294_2_alg».proof.Proof.RefValue1
import proofs.«116996_j188978561294_2_alg».proof.Proof.RefValue2

noncomputable section

namespace Cert.RefValue

open Cert.ReferenceIdeal Cert.ReferenceIdeal.Read Cert.Spec Idealize.ShloMosaic Idealize.ShloMosaic.ValueIdx

theorem cx_lidx (n : Fin 4) (h : Fin 16) (i : Fin 2048) (d : Fin 64) (k : Fin 2048) : lidx_main_v32 (ix4 n h i d) k = ix4 n h i k :=
  funext fun a => Fin.ext (by match a with | ⟨0, _⟩ => rfl | ⟨1, _⟩ => rfl | ⟨2, _⟩ => rfl | ⟨3, _⟩ => rfl)
theorem cx_ridx (n : Fin 4) (h : Fin 16) (i : Fin 2048) (d : Fin 64) (k : Fin 2048) : ridx_main_v32 (ix4 n h i d) k = ix4 n h k d :=
  funext fun a => Fin.ext (by match a with | ⟨0, _⟩ => rfl | ⟨1, _⟩ => rfl | ⟨2, _⟩ => rfl | ⟨3, _⟩ => rfl)

/-- One head's context vector. -/
theorem ctxHead_eq (x0 : A3) (x1 : A2) (x2 : A1) (x3 : A2) (x4 : A1) (x5 : A2) (x6 : A1) (n : Fin 4) (h : Fin 16) (i : Fin 2048) (d : Fin 64) :
    val_main_v32 (F := Ideal) x0 x1 x2 x3 x4 x5 x6 (ix4 n h i d)
      = ctxHead scDiv nrmDiv (headRows x0 x1 x2 n h) (headRows x0 x3 x4 n h) (headRows x0 x5 x6 n h) i d := by
  rw [val_main_v32_apply]
  simp only [cx_lidx, cx_ridx, attw_eq, head_v]
  rfl

/-- The transpose back to [4,2048,16,64] and the reshape to [4,2048,1024], on indices. -/
theorem mergeIdx (n : Fin 4) (s : Fin 2048) (e : Fin 1024) :
    idx_main_v33 (idx_main_v34 (ix3 n s e)) = ix4 n (headOf e) s (inHead e) :=
  funext fun a => Fin.ext (by
    have hn := n.isLt; have hs := s.isLt; have he := e.isLt
    match a with
    | ⟨0, _⟩ => show ((n.val * 2048 + s.val) * 1024 + e.val) / 2097152 = n.val; omega
    | ⟨1, _⟩ => show ((n.val * 2048 + s.val) * 1024 + e.val) / 64 % 16 = e.val / 64; omega
    | ⟨2, _⟩ => show ((n.val * 2048 + s.val) * 1024 + e.val) / 1024 % 2048 = s.val; omega
    | ⟨3, _⟩ => show ((n.val * 2048 + s.val) * 1024 + e.val) % 64 = e.val % 64; omega)

/-- The attention context at (n, s, e). -/
theorem ctx_eq (x0 : A3) (x1 : A2) (x2 : A1) (x3 : A2) (x4 : A1) (x5 : A2) (x6 : A1) (n : Fin 4) (s : Fin 2048) (e : Fin 1024) :
    val_main_v34 (F := Ideal) x0 x1 x2 x3 x4 x5 x6 (ix3 n s e) = ctx scDiv nrmDiv x0 x1 x2 x3 x4 x5 x6 n s e := by
  rw [val_main_v34_apply, val_main_v33_apply, mergeIdx, ctxHead_eq]
  rfl

theorem out_lidx (n : Fin 4) (s : Fin 2048) (e k : Fin 1024) : lidx_main_v35 (ix3 n s e) k = ix3 n s k :=
  funext fun a => Fin.ext (by match a with | ⟨0, _⟩ => rfl | ⟨1, _⟩ => rfl | ⟨2, _⟩ => rfl)
theorem out_ridx (n : Fin 4) (s : Fin 2048) (e k : Fin 1024) : ridx_main_v35 (ix3 n s e) k = ix2 e k :=
  funext fun a => Fin.ext (by match a with | ⟨0, _⟩ => rfl | ⟨1, _⟩ => rfl)
theorem out_bidx (n : Fin 4) (s : Fin 2048) (e : Fin 1024) : idx_main_v36 (idx_main_v37 (ix3 n s e)) = ix1 e :=
  funext fun a => Fin.ext (by match a with | ⟨0, _⟩ => rfl)

/-- The residual row x + (ctx · Woᵀ + bo). -/
theorem resid_eq (x0 : A3) (x1 : A2) (x2 : A1) (x3 : A2) (x4 : A1) (x5 : A2) (x6 : A1) (x7 : A2) (x8 : A1) (n : Fin 4) (s : Fin 2048) (e : Fin 1024) :
    val_main_v39 (F := Ideal) x0 x1 x2 x3 x4 x5 x6 x7 x8 (ix3 n s e) = resid scDiv nrmDiv x0 x1 x2 x3 x4 x5 x6 x7 x8 n s e := by
  rw [val_main_v39_apply, val_main_v38_apply, val_main_v35_apply, val_main_v37_apply, val_main_v36_apply, out_bidx]
  simp only [out_lidx, out_ridx, ctx_eq, Ideal.addf_def]
  rfl

end Cert.RefValue

end
-- ==== Proof.RefValue.lean ====
/-
  The reference program read at plain coordinates, last part: the layer normalisation of a residual row, and the whole result.

  For a row r of the residual: the mean is (0 + ∑ e, r e) / 1024, the variance (0 + ∑ e, (r e − mean)²) / 1024, both
  kept on a unit axis [4, 2048, 1] and broadcast back along the row; the result is
  (r e − mean) / √(variance + ε) · γ e + β e.
-/
import proofs.«116996_j188978561294_2_alg».proof.Proof.Spec
import proofs.«116996_j188978561294_2_alg».proof.Proof.Gen.ReferenceIdeal.Read
import proofs.«116996_j188978561294_2_alg».proof.Proof.RefValue1
import proofs.«116996_j188978561294_2_alg».proof.Proof.RefValue2
import proofs.«116996_j188978561294_2_alg».proof.Proof.RefValue3

noncomputable section

namespace Cert.RefValue

open Cert.ReferenceIdeal Cert.ReferenceIdeal.Read Cert.Spec Idealize.ShloMosaic Idealize.ShloMosaic.ValueIdx

/-- The residual row at batch n, position s. -/
abbrev rrow (x0 : A3) (x1 : A2) (x2 : A1) (x3 : A2) (x4 : A1) (x5 : A2) (x6 : A1) (x7 : A2) (x8 : A1) (n : Fin 4) (s : Fin 2048) : Fin 1024 → EReal :=
  fun e => resid scDiv nrmDiv x0 x1 x2 x3 x4 x5 x6 x7 x8 n s e

theorem mean_idx40 (n : Fin 4) (s : Fin 2048) (k : Fin 1024) : idx_main_v40 (ix2 n s) k = ix3 n s k :=
  funext fun a => Fin.ext (by match a with | ⟨0, _⟩ => rfl | ⟨1, _⟩ => rfl | ⟨2, _⟩ => rfl)
theorem mean_idx41 (n : Fin 4) (s : Fin 2048) (z : Fin 1) : idx_main_v41 (ix3 n s z) = ix2 n s :=
  funext fun a => Fin.ext (by match a with | ⟨0, _⟩ => rfl | ⟨1, _⟩ => rfl)

/-- The mean of the row. -/
theorem mean_eq (x0 : A3) (x1 : A2) (x2 : A1) (x3 : A2) (x4 : A1) (x5 : A2) (x6 : A1) (x7 : A2) (x8 : A1) (n : Fin 4) (s : Fin 2048) (z : Fin 1) :
    val_main_v43 (F := Ideal) x0 x1 x2 x3 x4 x5 x6 x7 x8 (ix3 n s z) = rowMean (rrow x0 x1 x2 x3 x4 x5 x6 x7 x8 n s) := by
  rw [val_main_v43_apply, val_main_v41_apply, mean_idx41, val_main_v40_apply, val_main_cst_3_apply, val_main_v42_apply,
    val_main_cst_4_apply]
  simp only [mean_idx40, resid_eq, Ideal.ofBits_def, Ideal.ofBits_zero_f32, zero_add, Ideal.hostDivf_def]
  rfl

theorem bc_idx44 (n : Fin 4) (s : Fin 2048) (e : Fin 1024) : idx_main_v44 (ix3 n s e) = ix3 n s (⟨0, Nat.one_pos⟩ : Fin 1) :=
  funext fun a => Fin.ext (by match a with | ⟨0, _⟩ => rfl | ⟨1, _⟩ => rfl | ⟨2, _⟩ => rfl)
theorem bc_idx51 (n : Fin 4) (s : Fin 2048) (e : Fin 1024) : idx_main_v51 (ix3 n s e) = ix3 n s (⟨0, Nat.one_pos⟩ : Fin 1) :=
  funext fun a => Fin.ext (by match a with | ⟨0, _⟩ => rfl | ⟨1, _⟩ => rfl | ⟨2, _⟩ => rfl)
theorem bc_idx56 (n : Fin 4) (s : Fin 2048) (e : Fin 1024) : idx_main_v56 (ix3 n s e) = ix3 n s (⟨0, Nat.one_pos⟩ : Fin 1) :=
  funext fun a => Fin.ext (by match a with | ⟨0, _⟩ => rfl | ⟨1, _⟩ => rfl | ⟨2, _⟩ => rfl)

/-- The centred row, as the variance reads it and as the result reads it. -/
theorem cen_eq (x0 : A3) (x1 : A2) (x2 : A1) (x3 : A2) (x4 : A1) (x5 : A2) (x6 : A1) (x7 : A2) (x8 : A1) (n : Fin 4) (s : Fin 2048) (e : Fin 1024) :
    val_main_v45 (F := Ideal) x0 x1 x2 x3 x4 x5 x6 x7 x8 (ix3 n s e) = rrow x0 x1 x2 x3 x4 x5 x6 x7 x8 n s e - rowMean (rrow x0 x1 x2 x3 x4 x5 x6 x7 x8 n s) := by
  rw [val_main_v45_apply, val_main_v44_apply, bc_idx44, mean_eq, resid_eq]
  rfl
theorem cen2_eq (x0 : A3) (x1 : A2) (x2 : A1) (x3 : A2) (x4 : A1) (x5 : A2) (x6 : A1) (x7 : A2) (x8 : A1) (n : Fin 4) (s : Fin 2048) (e : Fin 1024) :
    val_main_v52 (F := Ideal) x0 x1 x2 x3 x4 x5 x6 x7 x8 (ix3 n s e) = rrow x0 x1 x2 x3 x4 x5 x6 x7 x8 n s e - rowMean (rrow x0 x1 x2 x3 x4 x5 x6 x7 x8 n s) := by
  rw [val_main_v52_apply, val_main_v51_apply, bc_idx51, mean_eq, resid_eq]
  rfl

theorem var_idx47 (n : Fin 4) (s : Fin 2048) (k : Fin 1024) : idx_main_v47 (ix2 n s) k = ix3 n s k :=
  funext fun a => Fin.ext (by match a with | ⟨0, _⟩ => rfl | ⟨1, _⟩ => rfl | ⟨2, _⟩ => rfl)
theorem var_idx48 (n : Fin 4) (s : Fin 2048) (z : Fin 1) : idx_main_v48 (ix3 n s z) = ix2 n s :=
  funext fun a => Fin.ext (by match a with | ⟨0, _⟩ => rfl | ⟨1, _⟩ => rfl)

/-- The variance of the row. -/
theorem var_eq (x0 : A3) (x1 : A2) (x2 : A1) (x3 : A2) (x4 : A1) (x5 : A2) (x6 : A1) (x7 : A2) (x8 : A1) (n : Fin 4) (s : Fin 2048) (z : Fin 1) :
    val_main_v50 (F := Ideal) x0 x1 x2 x3 x4 x5 x6 x7 x8 (ix3 n s z) = rowVar (rrow x0 x1 x2 x3 x4 x5 x6 x7 x8 n s) := by
  rw [val_main_v50_apply, val_main_v48_apply, var_idx48, val_main_v47_apply, val_main_cst_5_apply, val_main_v49_apply,
    val_main_cst_6_apply]
  simp only [var_idx47, val_main_v46_apply, cen_eq, Ideal.ofBits_def, Ideal.ofBits_zero_f32, zero_add, Ideal.hostDivf_def,
    Ideal.mulf_def]
  rfl

theorem ln_idx58 (n : Fin 4) (s : Fin 2048) (e : Fin 1024) : idx_main_v58 (idx_main_v59 (ix3 n s e)) = ix1 e :=
  funext fun a => Fin.ext (by match a with | ⟨0, _⟩ => rfl)
theorem ln_idx61 (n : Fin 4) (s : Fin 2048) (e : Fin 1024) : idx_main_v61 (idx_main_v62 (ix3 n s e)) = ix1 e :=
  funext fun a => Fin.ext (by match a with | ⟨0, _⟩ => rfl)

/-- The normalised row at (n, s, e). -/
theorem ln_eq (x0 : A3) (x1 : A2) (x2 : A1) (x3 : A2) (x4 : A1) (x5 : A2) (x6 : A1) (x7 : A2) (x8 : A1) (x9 x10 : A1) (n : Fin 4) (s : Fin 2048) (e : Fin 1024) :
    val_main_v63 (F := Ideal) x0 x1 x2 x3 x4 x5 x6 x7 x8 x9 x10 (ix3 n s e)
      = lnRow nrmDiv (rrow x0 x1 x2 x3 x4 x5 x6 x7 x8 n s) (fun e => x9 (ix1 e)) (fun e => x10 (ix1 e)) e := by
  rw [val_main_v63_apply, val_main_v60_apply, val_main_v57_apply, val_main_v56_apply, bc_idx56, val_main_v55_apply,
    val_main_v54_apply, var_eq, val_main_v53_apply, val_main_cst_7_apply, cen2_eq, val_main_v59_apply, val_main_v58_apply,
    ln_idx58, val_main_v62_apply, val_main_v61_apply, ln_idx61]
  rfl

/-- The reference program computes the specified function, spelled with the quotients. -/
theorem ref_eq (x0 : A3) (x1 : A2) (x2 : A1) (x3 : A2) (x4 : A1) (x5 : A2) (x6 : A1) (x7 : A2) (x8 : A1) (x9 x10 : A1) :
    val_main_v63 (F := Ideal) x0 x1 x2 x3 x4 x5 x6 x7 x8 x9 x10 = out scDiv nrmDiv x0 x1 x2 x3 x4 x5 x6 x7 x8 x9 x10 := by
  funext i
  obtain ⟨n, s, e, rfl⟩ : ∃ (n : Fin 4) (s : Fin 2048) (e : Fin 1024), i = ix3 n s e := ⟨i 0, i 1, i 2, eq_ix3 i⟩
  rw [ln_eq]
  rfl

end Cert.RefValue

end
-- ==== Proof.SpecConsts.lean ====
/-
  The float constants of the specification, as the extended reals their bit patterns denote:
  sign, biased exponent and significand of each 32-bit pattern, read as a real number or an infinity.
-/
import proofs.«116996_j188978561294_2_alg».proof.Proof.Spec
import Idealize.ShloMosaic.PureOps.Ideal

noncomputable section

namespace Cert.SpecConsts

open Idealize.ShloMosaic

/-- The pattern of `1.0` denotes the real `1`. -/
theorem cOne_eq : Cert.Spec.cOne = ((1 : ℝ) : EReal) := by
  simp [Cert.Spec.cOne, Ideal.ofBits, Ideal.ieee, -EReal.coe_mul]; norm_num

/-- The pattern of `1024.0` denotes the real `1024`. -/
theorem cN_eq : Cert.Spec.cN = ((1024 : ℝ) : EReal) := by
  simp [Cert.Spec.cN, Ideal.ofBits, Ideal.ieee, -EReal.coe_mul]; norm_num

/-- The pattern of `8.0` denotes the real `8`. -/
theorem cEight_eq : Cert.Spec.cEight = ((8 : ℝ) : EReal) := by
  simp [Cert.Spec.cEight, Ideal.ofBits, Ideal.ieee, -EReal.coe_mul]; norm_num

/-- The pattern of `0.125` denotes the real `1 / 8`. -/
theorem cEighth_eq : Cert.Spec.cEighth = ((1 / 8 : ℝ) : EReal) := by
  simp [Cert.Spec.cEighth, Ideal.ofBits, Ideal.ieee, -EReal.coe_mul]; norm_num

/-- The pattern of `−∞` denotes `⊥`. -/
theorem cNegInf_eq : Cert.Spec.cNegInf = (⊥ : EReal) := by
  simp [Cert.Spec.cNegInf, Ideal.ofBits, Ideal.ieee]

/-- The pattern of the float nearest `1e-5` denotes a positive real (a normal number: a positive
    integer times a power of two). -/
theorem cEps_pos : ∃ r : ℝ, 0 < r ∧ Cert.Spec.cEps = (r : EReal) := by
  refine ⟨(10995116 : ℝ) * (2 : ℝ) ^ (-40 : ℤ), by positivity, ?_⟩
  simp [Cert.Spec.cEps, Ideal.ofBits, Ideal.ieee, -EReal.coe_mul]

end Cert.SpecConsts

end
-- ==== Proof.SpecAlg1.lean ====
/-
  Real numbers inside the extended reals: closure of "is a real number" under the operations the
  specification uses, and the agreement of the two spellings of a scaling and of a quotient.
-/
import proofs.«116996_j188978561294_2_alg».proof.Proof.Spec
import proofs.«116996_j188978561294_2_alg».proof.Proof.SpecConsts
import Idealize.ShloMosaic.PureOps.Ideal

noncomputable section

namespace Cert.SpecAlg

open Idealize.ShloMosaic Cert.Spec

/-! ### Closure of the real numbers -/

theorem isReal_coe (r : ℝ) : IsReal (r : EReal) := ⟨r, rfl⟩

theorem IsReal.add {a b : EReal} (ha : IsReal a) (hb : IsReal b) : IsReal (a + b) := by
  obtain ⟨r, rfl⟩ := ha; obtain ⟨s, rfl⟩ := hb
  exact ⟨r + s, (EReal.coe_add r s).symm⟩

theorem IsReal.mul {a b : EReal} (ha : IsReal a) (hb : IsReal b) : IsReal (a * b) := by
  obtain ⟨r, rfl⟩ := ha; obtain ⟨s, rfl⟩ := hb
  exact ⟨r * s, (EReal.coe_mul r s).symm⟩

theorem IsReal.sub {a b : EReal} (ha : IsReal a) (hb : IsReal b) : IsReal (a - b) := by
  obtain ⟨r, rfl⟩ := ha; obtain ⟨s, rfl⟩ := hb
  exact ⟨r - s, (EReal.coe_sub r s).symm⟩

/-- The inclusion of the reals commutes with finite sums. -/
theorem coe_sum {ι : Type*} (s : Finset ι) (f : ι → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A family of real numbers is the inclusion of a real-valued family. -/
theorem exists_real_family {ι : Type*} {f : ι → EReal} (hf : ∀ j, IsReal (f j)) :
    ∃ g : ι → ℝ, ∀ j, f j = (g j : EReal) := by
  choose g hg using hf
  exact ⟨g, hg⟩

theorem IsReal.sum {ι : Type*} (s : Finset ι) {f : ι → EReal} (hf : ∀ j, IsReal (f j)) :
    IsReal (∑ j ∈ s, f j) := by
  obtain ⟨g, hg⟩ := exists_real_family hf
  refine ⟨∑ j ∈ s, g j, ?_⟩
  rw [coe_sum]
  exact Finset.sum_congr rfl (fun j _ => hg j)

/-- A sum of positive reals over a nonempty index set is a positive real. -/
theorem sum_pos_real {ι : Type*} (s : Finset ι) (hs : s.Nonempty) {f : ι → EReal}
    (hf : ∀ j, ∃ r : ℝ, 0 < r ∧ f j = (r : EReal)) :
    ∃ r : ℝ, 0 < r ∧ ∑ j ∈ s, f j = (r : EReal) := by
  choose g hg0 hg using hf
  refine ⟨∑ j ∈ s, g j, Finset.sum_pos (fun j _ => hg0 j) hs, ?_⟩
  rw [coe_sum]
  exact Finset.sum_congr rfl (fun j _ => hg j)

/-- The maximum of a nonempty family of reals, folded from `⊥`, is a real: the fold is `⊥` or one of
    the entries, and it is at least every entry. -/
theorem fold_max_real {ι : Type*} (s : Finset ι) (hs : s.Nonempty) {f : ι → EReal}
    (hf : ∀ j, IsReal (f j)) : IsReal (s.fold max (⊥ : EReal) f) := by
  classical
  have key : ∀ t : Finset ι, t.fold max (⊥ : EReal) f = ⊥ ∨ ∃ j ∈ t, t.fold max (⊥ : EReal) f = f j := by
    intro t
    induction t using Finset.induction_on with
    | empty => left; simp
    | insert a t ha ih =>
      right
      rw [Finset.fold_insert ha]
      rcases max_choice (f a) (t.fold max (⊥ : EReal) f) with h | h
      · exact ⟨a, Finset.mem_insert_self a t, h⟩
      · rcases ih with h0 | ⟨j, hj, hjf⟩
        · refine ⟨a, Finset.mem_insert_self a t, ?_⟩
          rw [h0]; exact max_eq_left bot_le
        · exact ⟨j, Finset.mem_insert_of_mem hj, by rw [h, hjf]⟩
  rcases key s with h0 | ⟨j, _, hj⟩
  · exfalso
    obtain ⟨j0, hj0⟩ := hs
    obtain ⟨r, hr⟩ := hf j0
    have hle : f j0 ≤ s.fold max (⊥ : EReal) f := (Finset.le_fold_max _).2 (Or.inr ⟨j0, hj0, le_rfl⟩)
    rw [h0, hr] at hle
    exact absurd hle (not_le.2 (EReal.bot_lt_coe r))
  · rw [hj]; exact hf j

/-! ### The two spellings -/

/-- Dividing by `8` is multiplying by `1 / 8`, at every extended real. -/
theorem scDiv_eq_scMul : scDiv = scMul := by
  funext t
  unfold scDiv scMul
  rw [Cert.SpecConsts.cEight_eq, Cert.SpecConsts.cEighth_eq]
  exact Ideal.div_coe (by norm_num) t

/-- Off a zero denominator the quotient is the product with the reciprocal `1 / l`. -/
theorem nrmDiv_eq_nrmMul (p : EReal) {l : EReal} (hl : l ≠ 0) : nrmDiv p l = nrmMul p l := by
  unfold nrmDiv nrmMul
  rw [Cert.SpecConsts.cOne_eq, EReal.coe_one, Ideal.div, Ideal.div, if_neg hl, if_neg hl, one_mul]

/-- A quotient of a real by a nonzero real is a real. -/
theorem IsReal.nrmMul {p l : EReal} (hp : IsReal p) {r : ℝ} (hr : r ≠ 0) (hl : l = (r : EReal)) :
    IsReal (Cert.Spec.nrmMul p l) := by
  subst hl
  have h0 : (r : EReal) ≠ 0 := EReal.coe_ne_zero.2 hr
  unfold Cert.Spec.nrmMul
  rw [Cert.SpecConsts.cOne_eq, EReal.coe_one, Ideal.div, if_neg h0, one_mul, ← EReal.coe_inv]
  exact IsReal.mul hp (isReal_coe _)

theorem isReal_scMul {t : EReal} (ht : IsReal t) : IsReal (scMul t) := by
  unfold scMul
  rw [Cert.SpecConsts.cEighth_eq]
  exact IsReal.mul ht (isReal_coe _)

/-- The exponential of a real is a positive real. -/
theorem exp_pos_real {t : EReal} (ht : IsReal t) : ∃ r : ℝ, 0 < r ∧ Ideal.exp t = (r : EReal) := by
  obtain ⟨s, rfl⟩ := ht
  exact ⟨Real.exp s, Real.exp_pos s, Ideal.exp_coe s⟩

/-- The square root of a positive real is a positive real. -/
theorem sqrt_pos_real {r : ℝ} (hr : 0 < r) : ∃ s : ℝ, 0 < s ∧ Ideal.sqrt (r : EReal) = (s : EReal) := by
  refine ⟨Real.sqrt r, Real.sqrt_pos.2 hr, ?_⟩
  rw [Ideal.sqrt_coe, if_neg (not_lt.2 hr.le)]

/-- Dividing a real by `1024` gives the real quotient. -/
theorem div_cN (r : ℝ) : Ideal.div (r : EReal) cN = ((r / 1024 : ℝ) : EReal) := by
  rw [Cert.SpecConsts.cN_eq, Ideal.div_coe (by norm_num), ← EReal.coe_mul]
  congr 1
  ring

end Cert.SpecAlg

end
-- ==== Proof.SpecAlg.lean ====
/-
  The two spellings of the specification agree on real inputs.

  With every input entry a real number, every intermediate quantity is a real number; the two
  denominators (the softmax normaliser, a sum of positive reals, and the square root of a positive real)
  are then nonzero, and off a zero denominator a quotient is the product with the reciprocal.
-/
import proofs.«116996_j188978561294_2_alg».proof.Proof.Spec
import proofs.«116996_j188978561294_2_alg».proof.Proof.SpecAlg1
import Idealize.ShloMosaic.PureOps.Ideal

noncomputable section

namespace Cert.SpecAlg

open Idealize.ShloMosaic Idealize.ShloMosaic.ValueIdx Cert.Spec

/-! ### One head -/

section Head
variable (q k v : Fin 2048 → Fin 64 → EReal)

theorem score_real (hq : ∀ i d, IsReal (q i d)) (hk : ∀ j d, IsReal (k j d)) (i j : Fin 2048) :
    IsReal (score scMul q k i j) := by
  unfold score
  exact isReal_scMul (IsReal.sum _ (fun d => IsReal.mul (hq i d) (hk j d)))

theorem rowMax_real (hq : ∀ i d, IsReal (q i d)) (hk : ∀ j d, IsReal (k j d)) (i : Fin 2048) :
    IsReal (rowMax scMul q k i) := by
  unfold rowMax
  rw [Cert.SpecConsts.cNegInf_eq]
  exact fold_max_real _ ⟨0, Finset.mem_univ _⟩ (fun j => score_real q k hq hk i j)

theorem pexp_pos (hq : ∀ i d, IsReal (q i d)) (hk : ∀ j d, IsReal (k j d)) (i j : Fin 2048) :
    ∃ r : ℝ, 0 < r ∧ pexp scMul q k i j = (r : EReal) := by
  unfold pexp
  exact exp_pos_real (IsReal.sub (score_real q k hq hk i j) (rowMax_real q k hq hk i))

theorem psum_pos (hq : ∀ i d, IsReal (q i d)) (hk : ∀ j d, IsReal (k j d)) (i : Fin 2048) :
    ∃ r : ℝ, 0 < r ∧ psum scMul q k i = (r : EReal) := by
  unfold psum
  exact sum_pos_real _ ⟨0, Finset.mem_univ _⟩ (fun j => pexp_pos q k hq hk i j)

theorem psum_ne_zero (hq : ∀ i d, IsReal (q i d)) (hk : ∀ j d, IsReal (k j d)) (i : Fin 2048) :
    psum scMul q k i ≠ 0 := by
  obtain ⟨r, hr, h⟩ := psum_pos q k hq hk i
  rw [h]; exact EReal.coe_ne_zero.2 hr.ne'

theorem attw_eq (hq : ∀ i d, IsReal (q i d)) (hk : ∀ j d, IsReal (k j d)) (i j : Fin 2048) :
    attw scDiv nrmDiv q k i j = attw scMul nrmMul q k i j := by
  rw [scDiv_eq_scMul]
  unfold attw
  exact nrmDiv_eq_nrmMul _ (psum_ne_zero q k hq hk i)

theorem attw_real (hq : ∀ i d, IsReal (q i d)) (hk : ∀ j d, IsReal (k j d)) (i j : Fin 2048) :
    IsReal (attw scMul nrmMul q k i j) := by
  obtain ⟨r, hr, h⟩ := psum_pos q k hq hk i
  obtain ⟨p, _, hp⟩ := pexp_pos q k hq hk i j
  unfold attw
  exact IsReal.nrmMul ⟨p, hp⟩ hr.ne' h

theorem ctxHead_eq (hq : ∀ i d, IsReal (q i d)) (hk : ∀ j d, IsReal (k j d)) (i : Fin 2048) (d : Fin 64) :
    ctxHead scDiv nrmDiv q k v i d = ctxHead scMul nrmMul q k v i d := by
  unfold ctxHead
  exact Finset.sum_congr rfl (fun j _ => by rw [attw_eq q k hq hk i j])

theorem ctxHead_real (hq : ∀ i d, IsReal (q i d)) (hk : ∀ j d, IsReal (k j d)) (hv : ∀ j d, IsReal (v j d))
    (i : Fin 2048) (d : Fin 64) : IsReal (ctxHead scMul nrmMul q k v i d) := by
  unfold ctxHead
  exact IsReal.sum _ (fun j => IsReal.mul (attw_real q k hq hk i j) (hv j d))

end Head

/-! ### The layer normalisation of a real row -/

section Norm
variable (r : Fin 1024 → EReal)

theorem rowMean_real (hr : ∀ e, IsReal (r e)) : IsReal (rowMean r) := by
  obtain ⟨s, hs⟩ := IsReal.sum Finset.univ hr
  unfold rowMean
  rw [hs, div_cN]
  exact isReal_coe _

/-- The variance of a real row is a nonnegative real. -/
theorem rowVar_nonneg (hr : ∀ e, IsReal (r e)) : ∃ s : ℝ, 0 ≤ s ∧ rowVar r = (s : EReal) := by
  obtain ⟨μ, hμ⟩ := rowMean_real r hr
  obtain ⟨ρ, hρ⟩ := exists_real_family hr
  have hsum : (∑ e : Fin 1024, (r e - rowMean r) * (r e - rowMean r))
      = ((∑ e : Fin 1024, (ρ e - μ) * (ρ e - μ) : ℝ) : EReal) := by
    rw [coe_sum]
    refine Finset.sum_congr rfl (fun e _ => ?_)
    rw [hμ, hρ e, ← EReal.coe_sub, ← EReal.coe_mul]
  refine ⟨(∑ e : Fin 1024, (ρ e - μ) * (ρ e - μ)) / 1024, ?_, ?_⟩
  · exact div_nonneg (Finset.sum_nonneg (fun e _ => mul_self_nonneg _)) (by norm_num)
  · unfold rowVar
    rw [hsum, div_cN]

theorem sqrt_var_ne_zero (hr : ∀ e, IsReal (r e)) : Ideal.sqrt (rowVar r + cEps) ≠ 0 := by
  obtain ⟨s, hs0, hs⟩ := rowVar_nonneg r hr
  obtain ⟨ε, hε0, hε⟩ := Cert.SpecConsts.cEps_pos
  rw [hs, hε, ← EReal.coe_add]
  obtain ⟨t, ht0, ht⟩ := sqrt_pos_real (add_pos_of_nonneg_of_pos hs0 hε0)
  rw [ht]; exact EReal.coe_ne_zero.2 ht0.ne'

theorem lnRow_eq (hr : ∀ e, IsReal (r e)) (g β : Fin 1024 → EReal) (e : Fin 1024) :
    lnRow nrmDiv r g β e = lnRow nrmMul r g β e := by
  unfold lnRow
  rw [nrmDiv_eq_nrmMul _ (sqrt_var_ne_zero r hr)]

end Norm

/-! ### The whole result -/

section Whole
variable (x : A3) (Wq : A2) (bq : A1) (Wk : A2) (bk : A1) (Wv : A2) (bv : A1) (Wo : A2) (bo : A1)

theorem proj_real (W : A2) (b : A1) (hx : ∀ i, IsReal (x i)) (hW : ∀ i, IsReal (W i)) (hb : ∀ i, IsReal (b i))
    (n : Fin 4) (s : Fin 2048) (e : Fin 1024) : IsReal (proj x W b n s e) := by
  unfold proj
  exact IsReal.add (IsReal.sum _ (fun d => IsReal.mul (hx _) (hW _))) (hb _)

theorem ctx_eq (hx : ∀ i, IsReal (x i)) (hWq : ∀ i, IsReal (Wq i)) (hbq : ∀ i, IsReal (bq i))
    (hWk : ∀ i, IsReal (Wk i)) (hbk : ∀ i, IsReal (bk i)) (n : Fin 4) (s : Fin 2048) (e : Fin 1024) :
    ctx scDiv nrmDiv x Wq bq Wk bk Wv bv n s e = ctx scMul nrmMul x Wq bq Wk bk Wv bv n s e := by
  unfold ctx
  exact ctxHead_eq _ _ _ (fun i d => proj_real x Wq bq hx hWq hbq n i _)
    (fun j d => proj_real x Wk bk hx hWk hbk n j _) s (inHead e)

theorem ctx_real (hx : ∀ i, IsReal (x i)) (hWq : ∀ i, IsReal (Wq i)) (hbq : ∀ i, IsReal (bq i))
    (hWk : ∀ i, IsReal (Wk i)) (hbk : ∀ i, IsReal (bk i)) (hWv : ∀ i, IsReal (Wv i)) (hbv : ∀ i, IsReal (bv i))
    (n : Fin 4) (s : Fin 2048) (e : Fin 1024) : IsReal (ctx scMul nrmMul x Wq bq Wk bk Wv bv n s e) := by
  unfold ctx
  exact ctxHead_real _ _ _ (fun i d => proj_real x Wq bq hx hWq hbq n i _)
    (fun j d => proj_real x Wk bk hx hWk hbk n j _) (fun j d => proj_real x Wv bv hx hWv hbv n j _) s (inHead e)

theorem resid_eq (hx : ∀ i, IsReal (x i)) (hWq : ∀ i, IsReal (Wq i)) (hbq : ∀ i, IsReal (bq i))
    (hWk : ∀ i, IsReal (Wk i)) (hbk : ∀ i, IsReal (bk i)) (n : Fin 4) (s : Fin 2048) (e : Fin 1024) :
    resid scDiv nrmDiv x Wq bq Wk bk Wv bv Wo bo n s e = resid scMul nrmMul x Wq bq Wk bk Wv bv Wo bo n s e := by
  unfold resid
  have h : ∀ d : Fin 1024, ctx scDiv nrmDiv x Wq bq Wk bk Wv bv n s d = ctx scMul nrmMul x Wq bq Wk bk Wv bv n s d :=
    fun d => ctx_eq x Wq bq Wk bk Wv bv hx hWq hbq hWk hbk n s d
  simp only [h]

theorem resid_real (hx : ∀ i, IsReal (x i)) (hWq : ∀ i, IsReal (Wq i)) (hbq : ∀ i, IsReal (bq i))
    (hWk : ∀ i, IsReal (Wk i)) (hbk : ∀ i, IsReal (bk i)) (hWv : ∀ i, IsReal (Wv i)) (hbv : ∀ i, IsReal (bv i))
    (hWo : ∀ i, IsReal (Wo i)) (hbo : ∀ i, IsReal (bo i)) (n : Fin 4) (s : Fin 2048) (e : Fin 1024) :
    IsReal (resid scMul nrmMul x Wq bq Wk bk Wv bv Wo bo n s e) := by
  unfold resid
  exact IsReal.add (hx _) (IsReal.add (IsReal.sum _ (fun d =>
    IsReal.mul (ctx_real x Wq bq Wk bk Wv bv hx hWq hbq hWk hbk hWv hbv n s d) (hWo _))) (hbo _))

end Whole

/-- On real inputs, the specification spelled with quotients is the specification spelled with the
    constant `0.125` and reciprocals. -/
theorem out_div_eq_mul (x : Cert.Spec.A3) (Wq : Cert.Spec.A2) (bq : Cert.Spec.A1) (Wk : Cert.Spec.A2) (bk : Cert.Spec.A1)
    (Wv : Cert.Spec.A2) (bv : Cert.Spec.A1) (Wo : Cert.Spec.A2) (bo : Cert.Spec.A1) (g β : Cert.Spec.A1)
    (hx : ∀ i, Cert.Spec.IsReal (x i)) (hWq : ∀ i, Cert.Spec.IsReal (Wq i)) (hbq : ∀ i, Cert.Spec.IsReal (bq i))
    (hWk : ∀ i, Cert.Spec.IsReal (Wk i)) (hbk : ∀ i, Cert.Spec.IsReal (bk i)) (hWv : ∀ i, Cert.Spec.IsReal (Wv i))
    (hbv : ∀ i, Cert.Spec.IsReal (bv i)) (hWo : ∀ i, Cert.Spec.IsReal (Wo i)) (hbo : ∀ i, Cert.Spec.IsReal (bo i))
    (hg : ∀ i, Cert.Spec.IsReal (g i)) (hβ : ∀ i, Cert.Spec.IsReal (β i)) :
    Cert.Spec.out Cert.Spec.scDiv Cert.Spec.nrmDiv x Wq bq Wk bk Wv bv Wo bo g β
      = Cert.Spec.out Cert.Spec.scMul Cert.Spec.nrmMul x Wq bq Wk bk Wv bv Wo bo g β := by
  funext i
  unfold Cert.Spec.out
  have h : (fun e => resid scDiv nrmDiv x Wq bq Wk bk Wv bv Wo bo (i 0) (i 1) e)
      = (fun e => resid scMul nrmMul x Wq bq Wk bk Wv bv Wo bo (i 0) (i 1) e) :=
    funext (fun e => resid_eq x Wq bq Wk bk Wv bv Wo bo hx hWq hbq hWk hbk (i 0) (i 1) e)
  rw [h]
  exact lnRow_eq _ (fun e => resid_real x Wq bq Wk bk Wv bv Wo bo hx hWq hbq hWk hbk hWv hbv hWo hbo (i 0) (i 1) e) _ _ _

end Cert.SpecAlg

end
-- ==== Proof.FiniteInputs.lean ====
/-
  The precondition, decoded. The predicate takes the absolute value of every entry of each of the eleven float
  inputs, compares it strictly below +∞, folds each array of comparison bits by `and` from 1, and joins the eleven
  results by `and`. If the result is 1, every fold is 1, so every comparison bit is 1: `max a (-a) < ⊤` for every
  entry `a`, read as an extended real. Neither ⊥ nor ⊤ satisfies that (both have `max a (-a) = ⊤`), so every entry
  is a real number.
-/
import proofs.«116996_j188978561294_2_alg».proof.Proof.Spec
import proofs.«116996_j188978561294_2_alg».proof.Pre_finite_inputs
import proofs.«116996_j188978561294_2_alg».proof.Proof.Gen.Pre_finite_inputs
import Idealize.ShloMosaic.Lib.ReduceAll
import Idealize.ShloMosaic.PureOps.Ideal.Laws

noncomputable section

namespace Cert.FiniteInputs

open Idealize.ShloMosaic Cert.Pre_finite_inputs

/-- The scalar shape has exactly one index. -/
instance : Subsingleton S_.Idx := ⟨fun a b => funext fun d => d.elim0⟩

/-- The word `0x7F800000` denotes +∞. -/
theorem inf_eq_top : (FloatOps.ofBits (F := Ideal) .f32 0x7F800000#32) = (⊤ : EReal) := by
  simp [Ideal.ofBits, Ideal.ieee]

/-- An extended real whose absolute value `max a (-a)` compares strictly below ⊤ is a real number. -/
theorem isReal_of_abs_lt_top (a : EReal) (h : Ideal.cmp .olt (max a (-a)) ⊤ = 1#1) : Cert.Spec.IsReal a := by
  induction a using EReal.rec with
  | bot => simp [Ideal.cmp] at h
  | top => simp [Ideal.cmp] at h
  | coe r => exact ⟨r, rfl⟩

/-- One conjunct, at any shape: if the fold by `and` of the bits `|x i| < +∞` over all of `x` is 1, every entry of
    `x` is real. -/
theorem real_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32)))
          (constantI S_ 1 1#1) hr hu j = 1#1) (i : s.Idx) : Cert.Spec.IsReal (x i) := by
  have h := Host.reduce_andi_all _ _ hr hu j e i
  refine isReal_of_abs_lt_top (x i) ?_
  rw [← inf_eq_top]
  exact h

/-- If the precondition holds, all eleven inputs are real entrywise. -/
theorem real_of_pre [Cert.Pre_finite_inputs.Facts]
    (x0 : Cert.Spec.A3) (x1 : Cert.Spec.A2) (x2 : Cert.Spec.A1) (x3 : Cert.Spec.A2) (x4 : Cert.Spec.A1)
    (x5 : Cert.Spec.A2) (x6 : Cert.Spec.A1) (x7 : Cert.Spec.A2) (x8 : Cert.Spec.A1) (x9 x10 : Cert.Spec.A1)
    (h : Cert.Pre_finite_inputs.fn (F := Ideal) x0 x1 x2 x3 x4 x5 x6 x7 x8 x9 x10 = fun _ => 1#1) :
    (∀ i, Cert.Spec.IsReal (x0 i)) ∧ (∀ i, Cert.Spec.IsReal (x1 i)) ∧ (∀ i, Cert.Spec.IsReal (x2 i)) ∧
    (∀ i, Cert.Spec.IsReal (x3 i)) ∧ (∀ i, Cert.Spec.IsReal (x4 i)) ∧ (∀ i, Cert.Spec.IsReal (x5 i)) ∧
    (∀ i, Cert.Spec.IsReal (x6 i)) ∧ (∀ i, Cert.Spec.IsReal (x7 i)) ∧ (∀ i, Cert.Spec.IsReal (x8 i)) ∧
    (∀ i, Cert.Spec.IsReal (x9 i)) ∧ (∀ i, Cert.Spec.IsReal (x10 i)) := by
  -- the predicate's one result word, as the conjunction of its eleven folds
  have e := congrFun h ValueIdx.ix0
  dsimp only [fn] at e
  dsimp only [fn_part1] at e
  dsimp only [fn_part2] at e
  dsimp only [fn_part3] at e
  simp only [andi, IntOp.andi_eq_one] at e
  obtain ⟨⟨⟨⟨⟨⟨⟨⟨⟨⟨e0, e1⟩, e2⟩, e3⟩, e4⟩, e5⟩, e6⟩, e7⟩, e8⟩, e9⟩, e10⟩ := e
  exact ⟨real_of_all x0 _ _ _ _ e0, real_of_all x1 _ _ _ _ e1, real_of_all x2 _ _ _ _ e2, real_of_all x3 _ _ _ _ e3,
    real_of_all x4 _ _ _ _ e4, real_of_all x5 _ _ _ _ e5, real_of_all x6 _ _ _ _ e6, real_of_all x7 _ _ _ _ e7,
    real_of_all x8 _ _ _ _ e8, real_of_all x9 _ _ _ _ e9, real_of_all x10 _ _ _ _ e10⟩

end Cert.FiniteInputs

end
-- ==== Proof.lean ====
/-
  The certificate's five claims, proved.

  The two programs are one function of the eleven argument arrays: multi-head self-attention on [4, 2048, 1024] with
  16 heads of width 64, an output projection, a residual connection and a layer normalisation (Proof/Spec.lean states it
  once, over plain coordinates, with the scaling of the scores and the two quotients as parameters).

  · The kernel program, at the bit-exact floats and at the extended reals, and the reference program each run to the end and
    leave the argument arrays as they were (the three frame claims).
  · The idealization rewrote no operation, so there is nothing to preserve (the fourth claim is `True`).
  · At the extended reals both programs end with the same result array (the fifth claim). The kernel's result is the
    specified function spelled with the product by 0.125 and products by the reciprocals 1 / l and 1 / √(var + ε); the reference's
    is the same function spelled with the quotient by 8 and the quotients by l and by √(var + ε). The law that joins them:
    dividing by 8 is multiplying by 0.125 at every extended real; and on inputs that are real numbers — which the precondition
    gives, entry by entry — every intermediate quantity is a real number, the softmax normaliser l is a sum of positive reals
    and √(var + ε) the square root of a positive real, so neither denominator is zero, and off a zero denominator the
    quotient t / l is the product t · (1 / l).
-/
import proofs.«116996_j188978561294_2_alg».proof.Defs
import proofs.«116996_j188978561294_2_alg».proof.Proof.Gen.Kernel
import proofs.«116996_j188978561294_2_alg».proof.Proof.Gen.Kernel.Skeleton
import proofs.«116996_j188978561294_2_alg».proof.Proof.Gen.Kernel.Launch
import proofs.«116996_j188978561294_2_alg».proof.Proof.Gen.Kernel.Points
import proofs.«116996_j188978561294_2_alg».proof.Proof.Gen.Kernel.Frame
import proofs.«116996_j188978561294_2_alg».proof.Proof.Gen.KernelIdeal
import proofs.«116996_j188978561294_2_alg».proof.Proof.Gen.KernelIdeal.Skeleton
import proofs.«116996_j188978561294_2_alg».proof.Proof.Gen.KernelIdeal.Launch
import proofs.«116996_j188978561294_2_alg».proof.Proof.Gen.KernelIdeal.Points
import proofs.«116996_j188978561294_2_alg».proof.Proof.Gen.KernelIdeal.Frame
import proofs.«116996_j188978561294_2_alg».proof.Proof.Gen.ReferenceIdeal
import proofs.«116996_j188978561294_2_alg».proof.Proof.Gen.ReferenceIdeal.Run
import proofs.«116996_j188978561294_2_alg».proof.Proof.Gen.ReferenceIdeal.Read
import proofs.«116996_j188978561294_2_alg».proof.Proof.Gen.Pre_finite_inputs
import proofs.«116996_j188978561294_2_alg».proof.Proof.KRun
import proofs.«116996_j188978561294_2_alg».proof.Proof.KValue
import proofs.«116996_j188978561294_2_alg».proof.Proof.RefValue
import proofs.«116996_j188978561294_2_alg».proof.Proof.SpecAlg
import proofs.«116996_j188978561294_2_alg».proof.Proof.FiniteInputs
import Idealize.ShloMosaic.Adequacy
import Idealize.ShloMosaic.Init

noncomputable section

namespace Cert.Proof

open Idealize.ShloMosaic Idealize.SL.Sem

/-- The kernel program at the bit-exact floats runs and leaves its arguments unchanged. -/
theorem frame_kernel : Cert.frame_Kernel := fun m ρ _ => Cert.Kernel.Gen.frame m ρ

/-- The kernel program at the extended reals runs and leaves its arguments unchanged. -/
theorem frame_kernelIdeal : Cert.frame_KernelIdeal := fun m ρ _ => Cert.KernelIdeal.Gen.frame m ρ

/-- The reference program runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- At the extended reals, from memories that agree on the arguments, both programs end with the specified function of the
    arguments in the spelling with products: the kernel by its own reading, the reference by its reading in the spelling
    with quotients and the law between the two spellings on real inputs. -/
theorem algebraic : Cert.algebraic_KernelIdeal_ReferenceIdeal := by
  intro m ρ m' ρ' hpre hagree
  refine ⟨fun c => Cert.Spec.out Cert.Spec.scMul Cert.Spec.nrmMul
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelValue.kernel_value m ρ c), (h c).2⟩)
      (Cert.KernelValue.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v63_eq, Cert.RefValue.ref_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1, (hagree c).2.2.2.2.2.2.2.2.2.2]
    obtain ⟨h0, h1, h2, h3, h4, h5, h6, h7, h8, h9, h10⟩ :=
      Cert.FiniteInputs.real_of_pre _ _ _ _ _ _ _ _ _ _ _ (hpre c)
    exact Cert.SpecAlg.out_div_eq_mul _ _ _ _ _ _ _ _ _ _ _ h0 h1 h2 h3 h4 h5 h6 h7 h8 h9 h10

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
